-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512 : Shape := ⟨1, ![512]⟩
abbrev S512x512 : Shape := ⟨2, ![512, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S131072x512 .f32) (main_arg1 : FVec F S512 .f32) (main_arg2 : FVec F S512 .f32) (main_arg3 : FVec F S512x512 .f32) (main_arg4 : FVec F S512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S131072x512 : Shape := ⟨2, ![131072, 512]⟩
abbrev S512 : Shape := ⟨1, ![512]⟩
abbrev S512x512 : Shape := ⟨2, ![512, 512]⟩
abbrev S1x512 : Shape := ⟨2, ![1, 512]⟩
abbrev S4096x512 : Shape := ⟨2, ![4096, 512]⟩
abbrev S_ : Shape := ⟨0, ![]⟩
abbrev S2048x512 : Shape := ⟨2, ![2048, 512]⟩

abbrev nBuf : Space → Nat
  | .hbm => 28
  | .vmem => 14
  | .smem => 0
  | _ => 0

abbrev bufTy : (tb : Table) → Fin (tcTables nBuf tb) → BufTy
  | .hbm, ⟨0, _⟩ => ⟨S131072x512, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S_, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S_, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S512x512, .f32⟩
  | .hbm, ⟨25, _⟩ => ⟨S512x512, .bf16⟩
  | .hbm, ⟨26, _⟩ => ⟨S1x512, .f32⟩
  | .hbm, ⟨27, _⟩ => ⟨S131072x512, .f32⟩
  | .local _ .vmem, ⟨0, _⟩ => ⟨S4096x512, .f32⟩
  | .local _ .vmem, ⟨1, _⟩ => ⟨S4096x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S2048x512, .f32⟩
  | .local _ .vmem, ⟨13, _⟩ => ⟨S2048x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v19 : BitVec 1 := Scalar.cmpi .eq arg0 c31_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S4096x512_S4096x512_0_0 : ∀ a, (![0, 0] : Fin 2 → Nat) a + S4096x512.size a ≤ S4096x512.size a
  h_S4096x512 : 0 < S4096x512.numel
  reduces_S4096x512_S512 : S4096x512.Reduces [0] S512
  shapeCasts_S512_S1x512 : S512.ShapeCasts S1x512
  bcast_S_S1x512 : S_.BroadcastsInDim S1x512 (![] : Fin 0 → Fin S1x512.rank)
  bcast_S512_S1x512_1 : S512.BroadcastsInDim S1x512 (![1] : Fin 1 → Fin S1x512.rank)
  transposes_S512x512_S512x512_1_0 : S512x512.Transposes [1, 0] S512x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  broadcasts_S1x512_S2048x512 : S1x512.Broadcasts S2048x512
  natLt_1_32 : 1 < 32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S131072x512.size a
  hwx1_0 : ∀ i : grid1.Coords, EltTy.bits .f32 = 32 ∨ (Rect.block (s := S131072x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x512.size a ≤ S131072x512.size a
  hwx1_5 : ∀ i : grid1.Coords, EltTy.bits .f32 = 32 ∨ (Rect.block (s := S131072x512) S2048x512.size (cc1_transform_5 i) (hinb1_5 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x512.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S2048x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S131072x512 : Shape := ⟨2, ![131072, 512]⟩
abbrev S512 : Shape := ⟨1, ![512]⟩
abbrev S512x512 : Shape := ⟨2, ![512, 512]⟩
abbrev S_ : Shape := ⟨0, ![]⟩
abbrev S1x512 : Shape := ⟨2, ![1, 512]⟩

abbrev nBuf : Space → Nat
  | .hbm => 43
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S131072x512, .f32⟩
  | .hbm, ⟨12, _⟩ => ⟨S131072x512, .f32⟩
  | .hbm, ⟨13, _⟩ => ⟨S131072x512, .f32⟩
  | .hbm, ⟨14, _⟩ => ⟨S_, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S1x512, .f32⟩
  | .hbm, ⟨20, _⟩ => ⟨S131072x512, .f32⟩
  | .hbm, ⟨21, _⟩ => ⟨S131072x512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S1x512, .f32⟩
  | .hbm, ⟨27, _⟩ => ⟨S131072x512, .f32⟩
  | .hbm, ⟨28, _⟩ => ⟨S131072x512, .f32⟩
  | .hbm, ⟨29, _⟩ => ⟨S1x512, .f32⟩
  | .hbm, ⟨30, _⟩ => ⟨S131072x512, .f32⟩
  | .hbm, ⟨31, _⟩ => ⟨S131072x512, .f32⟩
  | .hbm, ⟨32, _⟩ => ⟨S1x512, .f32⟩
  | .hbm, ⟨33, _⟩ => ⟨S131072x512, .f32⟩
  | .hbm, ⟨34, _⟩ => ⟨S131072x512, .f32⟩
  | .hbm, ⟨35, _⟩ => ⟨S_, .f32⟩
  | .hbm, ⟨36, _⟩ => ⟨S131072x512, .f32⟩
  | .hbm, ⟨37, _⟩ => ⟨S131072x512, .i1⟩
  | .hbm, ⟨38, _⟩ => ⟨S131072x512, .f32⟩
  | .hbm, ⟨39, _⟩ => ⟨S131072x512, .f32⟩
  | .hbm, ⟨40, _⟩ => ⟨S1x512, .f32⟩
  | .hbm, ⟨41, _⟩ => ⟨S131072x512, .f32⟩
  | .hbm, ⟨42, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  reducesTo_S131072x512_S512_d0 : S131072x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  dot_S131072x512_S512x512_S131072x512_1_1_0_0_n_n_wf : DotDims.WF S131072x512 S512x512 S131072x512 [1] [1] [0] [0] [] []

variable [Facts₀]

def dot_S131072x512_S512x512_S131072x512_1_1_0_0_n_n : DotDims S131072x512 S512x512 S131072x512 where
  lhsContracting := [1]
  rhsContracting := [1]
  lhsNonContracting := [0]
  rhsNonContracting := [0]
  lhsBatch := []
  rhsBatch := []
  wf := dot_S131072x512_S512x512_S131072x512_1_1_0_0_n_n_wf

class Facts : Prop extends Facts₀ where

variable [Facts]
-- ==== Proof.LibWholeRoundTrip.lean ====
/-
  A buffer stored whole and then loaded whole.

  When the last store to a buffer went through the rectangle that is the whole buffer (all offsets zero, the buffer's own
  sizes), a load through that same rectangle reads exactly the stored value, whatever the earlier stores left: the
  last piece covers every index.  This is the step an accumulator kept in a scratch buffer takes on every
  read-modify-write.
-/
import Idealize.ShloMosaic.Lib.Pipeline.Value

noncomputable section

namespace Idealize.ShloMosaic.View

variable {sig : RefSig} {κ : Kind} {sp : Space} {S : Shape} {e : EltTy} {Val : EltTy → Type}

/-- A load of the whole buffer right after a store of the whole buffer reads what was stored, whatever was stored
    before: `v.readCov (⟨whole, w⟩ :: L) whole = w`, the whole-buffer rectangle spelt with any offsets equal to zero. -/
theorem readCov_cons_whole [∀ e, Nonempty (Val e)] (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, mem_set_unit_zero rfl inb y⟩),
    canon_cons_unit_zero rfl, ld_unit_zero rfl]

end Idealize.ShloMosaic.View

end
-- ==== Proof.StepsBits.lean ====
import proofs.«147775_j69630009803372_1_alg».proof.Proof.Gen.Kernel.Launch
import proofs.«147775_j69630009803372_1_alg».proof.Proof.Gen.Kernel.Skeleton
import proofs.«147775_j69630009803372_1_alg».proof.Proof.Gen.Kernel.Points
import proofs.«147775_j69630009803372_1_alg».proof.Proof.LibWholeRoundTrip
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  The two kernel bodies as Hoare triples over whole staging buffers, at any float instance.

  The statistics kernel keeps two running rows in scratch: the column sums of the blocks seen so far and the column
  sums of their squares.  At every grid point it adds the current 4096-row block's column sums to the first row and
  the column sums of its squares to the second; at the first point it clears both rows beforehand, and at the last
  point it copies both rows out.  The three triples below are these three cases; what the scratch rows hold
  afterwards is the body's own arithmetic (the payloads `k0_pay3`, `k0_pay4`) of the block and of what they held
  before.

  The main kernel reads a 2048-row block, a scale row, a shift row, the 512×512 weight and a bias row and stores one
  2048-row block of results, the payload `k1_pay1` of the five.
-/

noncomputable section

namespace Cert.Kernel.Steps

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle. -/
theorem hz2 : (![0, 0] : Fin 2 → Nat) = fun _ => 0 := by funext a; fin_cases a <;> rfl

/-- The body's first branch: taken exactly at the first grid point, where the running rows are cleared. -/
abbrev atFirst (i : grid0.Coords) : Prop :=
  (Scalar.cmpi .ne (Scalar.extui (Scalar.cmpi .eq (BitVec.ofNat 32 (i 0).val) 0#32)) 0#32) = 1#1
/-- The body's second branch: taken exactly at the last grid point, where the running rows are copied out. -/
abbrev atLast (i : grid0.Coords) : Prop := k0_cond2 i = 1#1

theorem atFirst_iff : ∀ t : Fin cfg0.N, atFirst (grid0.coords t) ↔ t.val = 0 :=
  (by decide +kernel : ∀ t : Fin grid0.N, atFirst (grid0.coords t) ↔ t.val = 0)
theorem atLast_iff : ∀ t : Fin cfg0.N, atLast (grid0.coords t) ↔ t.val = 31 :=
  (by decide +kernel : ∀ t : Fin grid0.N, atLast (grid0.coords t) ↔ t.val = 31)

/-- The block of x is staged at every point. -/
theorem live0_0 : ∀ t : Fin cfg0.N, cfg0.idle 0 (grid0.coords t) = false := by decide +kernel
/-- The two result rows are idle, and not written back, at every point but the last; -/
theorem idle0_1 : ∀ t : Fin cfg0.N, ¬ atLast (grid0.coords t) → cfg0.idle 1 (grid0.coords t) = true := by decide +kernel
theorem idle0_2 : ∀ t : Fin cfg0.N, ¬ atLast (grid0.coords t) → cfg0.idle 2 (grid0.coords t) = true := by decide +kernel
theorem noFlush0_1 : ∀ t : Fin cfg0.N, ¬ atLast (grid0.coords t) → (cfg0.win 1).flush t = false := by decide +kernel
theorem noFlush0_2 : ∀ t : Fin cfg0.N, ¬ atLast (grid0.coords t) → (cfg0.win 2).flush t = false := by decide +kernel
/-- and live at the last. -/
theorem live0_1 : ∀ t : Fin cfg0.N, atLast (grid0.coords t) → cfg0.idle 1 (grid0.coords t) = false := by decide +kernel
theorem live0_2 : ∀ t : Fin cfg0.N, atLast (grid0.coords t) → cfg0.idle 2 (grid0.coords t) = false := by decide +kernel

/-! ## The statistics kernel -/

set_option maxHeartbeats 1000000 in
/-- The first point: whatever the scratch rows held, they end at the block's column sums added to the cleared row. -/
theorem stats_first (c : Dev nD) (E : Set ℕ) (i : grid0.Coords)
    (arg1 : Memref sig .tc .vmem S4096x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (h1 : atFirst i) (h2 : ¬ atLast i)
    (x0 : Vec F S4096x512 .f32) (y1 y2 : Vec F S1x512 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k0_pay3 x0 k0_pay1) ∗ owns (c : Thread nD τ) arg5 fullShare (k0_pay4 x0 k0_pay2)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact h1 | exact h2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    sl_unfold_run_names
    refine (View.read_writes_eq_canon _ _ _ (fun y => ⟨_, List.mem_cons_self, View.mem_set_unit_zero hz2 inb_S1x512_S1x512_0_0 y⟩)).trans ?_
    rw [View.canon_cons_unit_zero hz2]
    simp only [View.readAt_eq_ld, View.ld_unit_zero (S := S4096x512) hz2, View.ld_unit_zero (S := S1x512) hz2,
      View.readCov_unit_zero (S := S1x512) _ hz2 inb_S1x512_S1x512_0_0, View.readCov_cons_whole (S := S1x512) _ hz2 inb_S1x512_S1x512_0_0]
  iexists _; isplitr
  swap; · iexact H4
  ipureintro
  sl_unfold_run_names
  refine (View.read_writes_eq_canon _ _ _ (fun y => ⟨_, List.mem_cons_self, View.mem_set_unit_zero hz2 inb_S1x512_S1x512_0_0 y⟩)).trans ?_
  rw [View.canon_cons_unit_zero hz2]
  simp only [View.readAt_eq_ld, View.ld_unit_zero (S := S4096x512) hz2, View.ld_unit_zero (S := S1x512) hz2,
    View.readCov_unit_zero (S := S1x512) _ hz2 inb_S1x512_S1x512_0_0, View.readCov_cons_whole (S := S1x512) _ hz2 inb_S1x512_S1x512_0_0]

set_option maxHeartbeats 1000000 in
/-- A middle point: each scratch row ends at the block's contribution added to what it held. -/
theorem stats_mid (c : Dev nD) (E : Set ℕ) (i : grid0.Coords)
    (arg1 : Memref sig .tc .vmem S4096x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (h1 : ¬ atFirst i) (h2 : ¬ atLast i)
    (x0 : Vec F S4096x512 .f32) (y1 y2 s0 s1 : Vec F S1x512 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (k0_pay3 x0 s0) ∗ owns (c : Thread nD τ) arg5 fullShare (k0_pay4 x0 s1)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact h1 | exact h2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    sl_unfold_run_names
    refine (View.read_writes_eq_canon _ _ _ (fun y => ⟨_, List.mem_cons_self, View.mem_set_unit_zero hz2 inb_S1x512_S1x512_0_0 y⟩)).trans ?_
    rw [View.canon_cons_unit_zero hz2]
    simp only [View.readAt_eq_ld, View.ld_unit_zero (S := S4096x512) hz2, View.ld_unit_zero (S := S1x512) hz2,
      View.readCov_unit_zero (S := S1x512) _ hz2 inb_S1x512_S1x512_0_0, View.readCov_cons_whole (S := S1x512) _ hz2 inb_S1x512_S1x512_0_0]
  iexists _; isplitr
  swap; · iexact H4
  ipureintro
  sl_unfold_run_names
  refine (View.read_writes_eq_canon _ _ _ (fun y => ⟨_, List.mem_cons_self, View.mem_set_unit_zero hz2 inb_S1x512_S1x512_0_0 y⟩)).trans ?_
  rw [View.canon_cons_unit_zero hz2]
  simp only [View.readAt_eq_ld, View.ld_unit_zero (S := S4096x512) hz2, View.ld_unit_zero (S := S1x512) hz2,
    View.readCov_unit_zero (S := S1x512) _ hz2 inb_S1x512_S1x512_0_0, View.readCov_cons_whole (S := S1x512) _ hz2 inb_S1x512_S1x512_0_0]

set_option maxHeartbeats 1000000 in
/-- The last point: the scratch rows are updated as at a middle point and then copied into the two result rows. -/
theorem stats_last (c : Dev nD) (E : Set ℕ) (i : grid0.Coords)
    (arg1 : Memref sig .tc .vmem S4096x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (h1 : ¬ atFirst i) (h2 : atLast i)
    (x0 : Vec F S4096x512 .f32) (s0 s1 : Vec F S1x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k0_pay3 x0 s0) ∗ owns (c : Thread nD τ) arg3 fullShare (k0_pay4 x0 s1)
            ∗ owns (c : Thread nD τ) arg4 fullShare (k0_pay3 x0 s0) ∗ owns (c : Thread nD τ) arg5 fullShare (k0_pay4 x0 s1)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0; subst hf3; subst hf4
  sl_exec (disch := first | exact h1 | exact h2)
  sl_step
  iapply Hk
  isplitl [H0]; · iexists f0; isplitr; · ipureintro; rfl
                  iexact H0
  isplitl [H1]
  · iexists _; isplitr
    swap; · iexact H1
    ipureintro
    sl_unfold_run_names
    refine (View.read_writes_eq_canon _ _ _ (fun y => ⟨_, List.mem_cons_self, View.mem_set_unit_zero hz2 inb_S1x512_S1x512_0_0 y⟩)).trans ?_
    rw [View.canon_cons_unit_zero hz2]
    simp only [View.readAt_eq_ld, View.ld_unit_zero (S := S4096x512) hz2, View.ld_unit_zero (S := S1x512) hz2,
      View.readCov_unit_zero (S := S1x512) _ hz2 inb_S1x512_S1x512_0_0, View.readCov_cons_whole (S := S1x512) _ hz2 inb_S1x512_S1x512_0_0]
  isplitl [H2]
  · iexists _; isplitr
    swap; · iexact H2
    ipureintro
    sl_unfold_run_names
    refine (View.read_writes_eq_canon _ _ _ (fun y => ⟨_, List.mem_cons_self, View.mem_set_unit_zero hz2 inb_S1x512_S1x512_0_0 y⟩)).trans ?_
    rw [View.canon_cons_unit_zero hz2]
    simp only [View.readAt_eq_ld, View.ld_unit_zero (S := S4096x512) hz2, View.ld_unit_zero (S := S1x512) hz2,
      View.readCov_unit_zero (S := S1x512) _ hz2 inb_S1x512_S1x512_0_0, View.readCov_cons_whole (S := S1x512) _ hz2 inb_S1x512_S1x512_0_0]
  isplitl [H3]
  · iexists _; isplitr
    swap; · iexact H3
    ipureintro
    sl_unfold_run_names
    refine (View.read_writes_eq_canon _ _ _ (fun y => ⟨_, List.mem_cons_self, View.mem_set_unit_zero hz2 inb_S1x512_S1x512_0_0 y⟩)).trans ?_
    rw [View.canon_cons_unit_zero hz2]
    simp only [View.readAt_eq_ld, View.ld_unit_zero (S := S4096x512) hz2, View.ld_unit_zero (S := S1x512) hz2,
      View.readCov_unit_zero (S := S1x512) _ hz2 inb_S1x512_S1x512_0_0, View.readCov_cons_whole (S := S1x512) _ hz2 inb_S1x512_S1x512_0_0]
  iexists _; isplitr
  swap; · iexact H4
  ipureintro
  sl_unfold_run_names
  refine (View.read_writes_eq_canon _ _ _ (fun y => ⟨_, List.mem_cons_self, View.mem_set_unit_zero hz2 inb_S1x512_S1x512_0_0 y⟩)).trans ?_
  rw [View.canon_cons_unit_zero hz2]
  simp only [View.readAt_eq_ld, View.ld_unit_zero (S := S4096x512) hz2, View.ld_unit_zero (S := S1x512) hz2,
    View.readCov_unit_zero (S := S1x512) _ hz2 inb_S1x512_S1x512_0_0, View.readCov_cons_whole (S := S1x512) _ hz2 inb_S1x512_S1x512_0_0]

/-! ## The main kernel -/

set_option maxHeartbeats 1000000 in
/-- Every point: the result block ends at the body's arithmetic of the five inputs, which are left as they were. -/
theorem main_step (c : Dev nD) (E : Set ℕ) (i : grid1.Coords)
    (arg1 : Memref sig .tc .vmem S2048x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S2048x512 .f32) (harg6 : arg6.IsWhole)
    (x0 : Vec F S2048x512 .f32) (x1 x2 : Vec F S1x512 .f32) (x3 : Vec F S512x512 .bf16) (x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay1 x0 x1 x2 x3 x4)) -∗ K ⟨⟩))
      ⊢ wp frame (wpE (defs₀ (F := F)) Variants.none c none) E
          (cc1__main_kernel i arg1 harg1 arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  refine (View.read_writes_eq_canon _ _ _ (fun y => ⟨_, List.mem_cons_self, View.mem_set_unit_zero hz2 inb_S2048x512_S2048x512_0_0 y⟩)).trans ?_
  rw [View.canon_cons_unit_zero hz2]
  simp only [View.readAt_eq_ld, View.ld_unit_zero (S := S2048x512) hz2, View.ld_unit_zero (S := S1x512) hz2, View.ld_unit_zero (S := S512x512) hz2]

end Cert.Kernel.Steps

end
-- ==== Proof.StatsRegionBits.lean ====
import proofs.«147775_j69630009803372_1_alg».proof.Proof.StepsBits

set_option maxRecDepth 16384

/-!
  The statistics region: what the pipeline's buffers hold from point to point.

  The region runs 32 grid points; point t stages rows 4096·t … 4096·t + 4095 of x.  Two scratch rows are carried
  from point to point.  Writing x_t for the block of point t, the rows after point t are

      acc 0       = (column sums of x_0 added to the cleared row, column sums of x_0² added to the cleared row)
      acc (t + 1) = (column sums of x_(t+1) added to (acc t).1,   column sums of x_(t+1)² added to (acc t).2)

  with the additions and sums exactly as the body spells them (`k0_pay3`, `k0_pay4`).  The two result rows are
  written at the last point only, where they receive acc 31; at the other points their buffers are handed back
  untouched.  The region's invariant says that between two points the scratch rows hold acc of the point before.
-/

noncomputable section

namespace Cert.Kernel.Stats

open Cert.Kernel Cert.Kernel.Gen Cert.Kernel.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staged block of x is its block of the array at every point, for any proof data over these arrays whose body
    leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The running rows -/

/-- The two scratch rows after point `n`. -/
def acc (c : Dev nD) : (n : ℕ) → n < cfg0.N → Vec F S1x512 .f32 × Vec F S1x512 .f32
  | 0, hn => (k0_pay3 (iblk0 V c 0 ⟨0, hn⟩) k0_pay1, k0_pay4 (iblk0 V c 0 ⟨0, hn⟩) k0_pay2)
  | n + 1, hn => (k0_pay3 (iblk0 V c 0 ⟨n + 1, hn⟩) (acc c n (Nat.lt_of_succ_lt hn)).1,
      k0_pay4 (iblk0 V c 0 ⟨n + 1, hn⟩) (acc c n (Nat.lt_of_succ_lt hn)).2)

theorem acc_first (c : Dev nD) (t : Fin cfg0.N) (hz : t.val = 0) :
    acc V c t.val t.isLt = (k0_pay3 (iblk0 V c 0 t) k0_pay1, k0_pay4 (iblk0 V c 0 t) k0_pay2) := by
  obtain ⟨n, hn⟩ := t
  cases n with
  | zero => rfl
  | succ n => exact absurd hz (Nat.succ_ne_zero n)

theorem acc_next (c : Dev nD) (t : Fin cfg0.N) (hz : t.val ≠ 0) :
    acc V c t.val t.isLt = (k0_pay3 (iblk0 V c 0 t) (acc V c (t.val - 1) (Nat.lt_of_le_of_lt (Nat.sub_le _ _) t.isLt)).1,
      k0_pay4 (iblk0 V c 0 t) (acc V c (t.val - 1) (Nat.lt_of_le_of_lt (Nat.sub_le _ _) t.isLt)).2) := by
  obtain ⟨n, hn⟩ := t
  cases n with
  | zero => exact absurd rfl hz
  | succ n => rfl

/-! ## The invariant -/

/-- The two scratch rows, as memrefs. -/
abbrev scM0 : Memref sig .tc .vmem S1x512 .f32 := Memref.whole cc0_scratch0
abbrev scM1 : Memref sig .tc .vmem S1x512 .f32 := Memref.whole cc0_scratch1

/-- The scoped buffers this region does not stage are the two scratch rows and a rest (the other region's staging
    buffers), each whole at some contents. -/
theorem scoped_split (c : Dev nD) : ∃ R : sProp 𝕄,
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f) ∗ R) :=
  ⟨_, scopedRest0_eq c⟩

/-- That rest. -/
def otherScoped (c : Dev nD) : sProp 𝕄 := Classical.choose (scoped_split (F := F) c)

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f) ∗ otherScoped (F := F) c) :=
  Classical.choose_spec (scoped_split (F := F) c)

/-- The class's invariant with the two scratch rows as memrefs owned at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ otherScoped (F := F) c)
          ∗ (∃ r, prngReg c r)) := by
  unfold Pipeline.ΦA; rw [scopedRest0_split]; simp only [scM0, scM1, owns_whole]; try rfl

/-- The region's invariant before position `n`: before the first point every scratch at anything; afterwards the two
    scratch rows at what the point before left. -/
def PhiS (c : Dev nD) : (n : ℕ) → n ≤ cfg0.N → sProp 𝕄
  | 0, _ => Pipeline.ΦA spec0 c
  | n + 1, hn => iprop((owns (c : Thread nD τ) scM0 fullShare (acc V c n hn).1 ∗ owns (c : Thread nD τ) scM1 fullShare (acc V c n hn).2
        ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0 fullShare (acc V c n hn).1 ∗ owns (c : Thread nD τ) scM1 fullShare (acc V c n hn).2
        ∗ otherScoped (F := F) c) ∗ (∃ r, prngReg c r)) := rfl

theorem PhiS_pos (c : Dev nD) (n : ℕ) (h : n ≤ cfg0.N) (hz : n ≠ 0) :
    PhiS V c n h = iprop((owns (c : Thread nD τ) scM0 fullShare (acc V c (n - 1) (by omega)).1
        ∗ owns (c : Thread nD τ) scM1 fullShare (acc V c (n - 1) (by omega)).2
        ∗ otherScoped (F := F) c) ∗ (∃ r, prngReg c r)) := by
  cases n with
  | zero => exact absurd rfl hz
  | succ n => rfl

/-! ## The proof data -/

/-- The arrays as the region finds them; after the body the block of x in place and the result rows at the running
    rows; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (acc V c t.val t.isLt).1
    | ⟨2, _⟩ => (acc V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (acc V c t.val t.isLt).1 := by dsimp only [dat0]
theorem after0_2 (c : Dev nD) (t : Fin cfg0.N) : (dat0 V c).after 2 t = (acc V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point.  Which of the three cases the point is in is decided by its position; the invariant hands
    the body the scratch rows at what the point before left (at anything, at the first point) and takes them back at
    this point's running rows. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  have hN : t.val < 32 := lt_of_lt_of_eq t.isLt (show cfg0.N = 32 from N_0)
  by_cases hl : t.val = 31
  · -- the last point
    have hL : atLast (grid0.coords t) := (atLast_iff t).mpr hl
    have hF : ¬ atFirst (grid0.coords t) := fun h => by have := (atFirst_iff t).mp h; omega
    have hz : t.val ≠ 0 := by omega
    rw [show (dat0 V c).leavesExact 1 t = owns (c : Thread nD τ) (st0_1 t) fullShare ((dat0 V c).after 1 t) from by
      unfold Dat.leavesExact; rw [live0_1 t hL], after0_1]
    rw [show (dat0 V c).leavesExact 2 t = owns (c : Thread nD τ) (st0_2 t) fullShare ((dat0 V c).after 2 t) from by
      unfold Dat.leavesExact; rw [live0_2 t hL], after0_2]
    rw [PhiS_castSucc V c t, PhiS_pos V c _ _ hz, acc_next V c t hz]
    dsimp only
    iintro ⟨⟨⟨HS0, HS1, Hr⟩, Hg⟩, Ho, ⟨%d0, H0⟩, ⟨%d1, H1⟩, ⟨%d2, H2⟩⟩
    iapply (stats_last c Set.univ (grid0.coords t) _ _ _ _ _ _ _ _ _ _ hF hL (iblk0 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    iexact H2
  · have hL : ¬ atLast (grid0.coords t) := fun h => hl ((atLast_iff t).mp h)
    rw [Dat.leavesExact_idle (dat0 V c) 1 t (idle0_1 t hL) (noFlush0_1 t hL)]
    rw [Dat.leavesExact_idle (dat0 V c) 2 t (idle0_2 t hL) (noFlush0_2 t hL)]
    by_cases hz : t.val = 0
    · -- the first point
      have hF : atFirst (grid0.coords t) := (atFirst_iff t).mpr hz
      rw [PhiS_castSucc V c t, PhiS_zero V c _ _ hz, PhiA0_eq, acc_first V c t hz]
      dsimp only
      iintro ⟨⟨⟨HS0, HS1, Hr⟩, Hg⟩, Ho, ⟨%d0, H0⟩, ⟨%d1, H1⟩, ⟨%d2, H2⟩⟩
      iapply (stats_first c Set.univ (grid0.coords t) _ _ _ _ _ _ _ _ _ _ hF hL (iblk0 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexists _; iexact H1
      iexists _; iexact H2
    · -- a middle point
      have hF : ¬ atFirst (grid0.coords t) := fun h => hz ((atFirst_iff t).mp h)
      rw [PhiS_castSucc V c t, PhiS_pos V c _ _ hz, acc_next V c t hz]
      dsimp only
      iintro ⟨⟨⟨HS0, HS1, Hr⟩, Hg⟩, Ho, ⟨%d0, H0⟩, ⟨%d1, H1⟩, ⟨%d2, H2⟩⟩
      iapply (stats_mid c Set.univ (grid0.coords t) _ _ _ _ _ _ _ _ _ _ hF hL (iblk0 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexists _; iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch rows' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Cert.Kernel.Stats

end
-- ==== Proof.MainRegionBits.lean ====
import proofs.«147775_j69630009803372_1_alg».proof.Proof.StepsBits

set_option maxRecDepth 16384

/-!
  The main region: what the pipeline's buffers hold from point to point.

  The region runs 64 grid points; point t stages rows 2048·t … 2048·t + 2047 of x and the whole of the scale row,
  the shift row, the weight and the bias row (these four are fetched once and stay), and writes back one 2048-row
  block of the result, the body's arithmetic `k1_pay1` of the five staged blocks.  Nothing is carried between
  points, so the region's invariant is the class's.
-/

noncomputable section

namespace Cert.Kernel.Spike

open Cert.Kernel Cert.Kernel.Gen Cert.Kernel.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staged block is its block of the array at every point, fetched there or not, for any proof data
    over these arrays whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The proof data -/

/-- The arrays as the region finds them; after the body each input's buffer at its block and the result's at the
    body's arithmetic of the five; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (main_step c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Spike

end
-- ==== Proof.WholeRunBits.lean ====
import proofs.«147775_j69630009803372_1_alg».proof.Proof.StatsRegionBits
import proofs.«147775_j69630009803372_1_alg».proof.Proof.MainRegionBits
import proofs.«147775_j69630009803372_1_alg».proof.Proof.Gen.Kernel.Regions

set_option maxRecDepth 16384

/-!
  The whole program's run: the statistics region, the host operations between, the main region.

  The buffers' contents at the four boundaries are a fold from the launch memory: `B0` at launch; `B1` after the
  statistics region (its three arrays at what its write-backs leave, everything else as before); `B2` after the
  twenty host operations that turn the two statistics rows into the scale and shift rows; `B3` after the main
  region (its result array at what its write-backs leave).  Every weakly fair execution terminates with every
  unscoped buffer at `B3`; in particular the five arguments as launched (no operation and no region writes one)
  and the result array at the main region's write-backs.
-/

noncomputable section

namespace Cert.Kernel.Run

open Cert.Kernel Cert.Kernel.Gen Cert.Kernel.Steps Cert.Kernel.Stats Cert.Kernel.Spike
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- The same read at the TensorCore's references (what the statistics region's proof data take). -/
abbrev E0 : (c : Dev nD) → (b : Ref sig .tc) → Buf (Elt F) ((c : Thread nD τ).loc b) := fun c b => B0 m ρ c b
/-- After the statistics region: its arrays at what the pipeline leaves, every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem hF0 (c : Dev nD) (w : Fin cfg0.W) : (dat0 (E0 m ρ) c).arrAt w cfg0.N = E1 m ρ c (Pipeline.arrRef spec0 w) :=
  (B1_arr m ρ c w).symm
theorem hrest0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

/-- After the host operations between the regions. -/
abbrev B2 : Dev nD → Valuation τ sig (Elt F) := fun c => StableHlo.after hostOps1 (B1 m ρ c)
abbrev E2 : (c : Dev nD) → (b : Ref sig .tc) → Buf (Elt F) ((c : Thread nD τ).loc b) := fun c b => B2 m ρ c b
/-- After the main region: its arrays at what the pipeline leaves, every other buffer as entered. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ### The arguments end as launched -/

/-- The host operations write none of the references outside their own results. -/
theorem B2_of (c : Dev nD) (r : Ref sig .tc) (h : r ∉ (hostOps1_W : List (Ref sig .tc))) : B2 m ρ c r = B1 m ρ c r :=
  StableHlo.after_of_writes_sub hostOps1 _ hostOps1_writes h

/-- x is staged by both regions and written by neither. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := (B3_arr m ρ c 0).trans (((dat1 (E2 m ρ) c).arrAt_in 0 rfl _).trans (A_eq1 (E2 m ρ) c 0))
    _ = B1 m ρ c (Proc.devRef .tc main_arg0) := B2_of m ρ c main_arg0 (by decide)
    _ = B0 m ρ c (Proc.devRef .tc main_arg0) := (B1_arr m ρ c 0).trans (((dat0 (E0 m ρ) c).arrAt_in 0 rfl _).trans (A_eq0 (E0 m ρ) c 0))
    _ = m ((c : Thread nD τ).loc main_arg0) := rfl
/-- The other four arguments are no window's array. -/
theorem B3_main_arg1 (c : Dev nD) : B3 m ρ c (Proc.devRef .tc main_arg1) = m ((c : Thread nD τ).loc main_arg1) :=
  (B3_of_ne m ρ c main_arg1 (by decide)).trans ((B2_of m ρ c main_arg1 (by decide)).trans ((B1_of_ne m ρ c main_arg1 (by decide)).trans rfl))
theorem B3_main_arg2 (c : Dev nD) : B3 m ρ c (Proc.devRef .tc main_arg2) = m ((c : Thread nD τ).loc main_arg2) :=
  (B3_of_ne m ρ c main_arg2 (by decide)).trans ((B2_of m ρ c main_arg2 (by decide)).trans ((B1_of_ne m ρ c main_arg2 (by decide)).trans rfl))
theorem B3_main_arg3 (c : Dev nD) : B3 m ρ c (Proc.devRef .tc main_arg3) = m ((c : Thread nD τ).loc main_arg3) :=
  (B3_of_ne m ρ c main_arg3 (by decide)).trans ((B2_of m ρ c main_arg3 (by decide)).trans ((B1_of_ne m ρ c main_arg3 (by decide)).trans rfl))
theorem B3_main_arg4 (c : Dev nD) : B3 m ρ c (Proc.devRef .tc main_arg4) = m ((c : Thread nD τ).loc main_arg4) :=
  (B3_of_ne m ρ c main_arg4 (by decide)).trans ((B2_of m ρ c main_arg4 (by decide)).trans ((B1_of_ne m ρ c main_arg4 (by decide)).trans rfl))

/-! ## The proof data family and the thread state -/

/-- No pipeline has a prefetched table. -/
abbrev tables : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) tables p) c
  | ⟨0, _⟩ => fun c => dat0 (E0 m ρ) c
  | ⟨1, _⟩ => fun c => dat1 (E2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- The host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- The statistics region: entered from every unscoped buffer at `B0`, left at `B1`.  The generator register goes
    into the region's invariant and comes back; the scratch rows are among the scoped buffers the invariant takes and
    returns; nothing is owed; the kernel has no semaphore of its own. -/
def reg0 : Pipeline.RegionSeg (pcfgs (F := F)) tables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = (dat0 (E0 m ρ) c).Φ (Fin.last cfg0.N) from rfl]
    have h0 := hout0 (E0 m ρ) c
    unfold Pipeline.ΦA at h0
    iintro H
    ihave H' := h0 $$ H
    icases H' with ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main region: entered from every unscoped buffer at `B2`, left at `B3` (what the launch reads at the end). -/
def reg1 : Pipeline.RegionSeg (pcfgs (F := F)) tables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) tables (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The three segments in order. -/
abbrev parts : List (Pipeline.Seg (pcfgs (F := F)) tables (pdats m ρ) () defs₀ 𝒱₀ L lv) :=
  [ .region (reg0 m ρ),
    .host (hseg hostOps1 hostOps1_sub hostOps1_fresh (B1 m ρ)),
    .region (reg1 m ρ) ]

/-- The program is the run of the segments. -/
theorem main_run (c : Dev nD) : main (F := F) c = Pipeline.Seg.run (parts m ρ) := (main_chain c).trans (by chain_rfl)

set_option backward.isDefEq.respectTransparency.types false in
/-- From any memory with zero counters every weakly fair execution terminates, nothing faulting, and every final
    state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) tables (pdats m ρ) () cellOf_inj emb₁ defs₀ 𝒱₀ L lv m ρ main (parts m ρ)
    (fun c Q => by rw [main_run m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-- The frame: the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c),
     (h c _ (mem_uc main_arg4 (by decide))).trans (B3_main_arg4 m ρ c)⟩) (run_all m ρ)

end Cert.Kernel.Run

end
-- ==== Proof.StepsIdeal.lean ====
import proofs.«147775_j69630009803372_1_alg».proof.Proof.Gen.KernelIdeal.Launch
import proofs.«147775_j69630009803372_1_alg».proof.Proof.Gen.KernelIdeal.Skeleton
import proofs.«147775_j69630009803372_1_alg».proof.Proof.Gen.KernelIdeal.Points
import proofs.«147775_j69630009803372_1_alg».proof.Proof.LibWholeRoundTrip
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  The two kernel bodies as Hoare triples over whole staging buffers, at any float instance.

  The statistics kernel keeps two running rows in scratch: the column sums of the blocks seen so far and the column
  sums of their squares.  At every grid point it adds the current 4096-row block's column sums to the first row and
  the column sums of its squares to the second; at the first point it clears both rows beforehand, and at the last
  point it copies both rows out.  The three triples below are these three cases; what the scratch rows hold
  afterwards is the body's own arithmetic (the payloads `k0_pay3`, `k0_pay4`) of the block and of what they held
  before.

  The main kernel reads a 2048-row block, a scale row, a shift row, the 512×512 weight and a bias row and stores one
  2048-row block of results, the payload `k1_pay1` of the five.
-/

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle. -/
theorem hz2 : (![0, 0] : Fin 2 → Nat) = fun _ => 0 := by funext a; fin_cases a <;> rfl

/-- The body's first branch: taken exactly at the first grid point, where the running rows are cleared. -/
abbrev atFirst (i : grid0.Coords) : Prop :=
  (Scalar.cmpi .ne (Scalar.extui (Scalar.cmpi .eq (BitVec.ofNat 32 (i 0).val) 0#32)) 0#32) = 1#1
/-- The body's second branch: taken exactly at the last grid point, where the running rows are copied out. -/
abbrev atLast (i : grid0.Coords) : Prop := k0_cond2 i = 1#1

theorem atFirst_iff : ∀ t : Fin cfg0.N, atFirst (grid0.coords t) ↔ t.val = 0 :=
  (by decide +kernel : ∀ t : Fin grid0.N, atFirst (grid0.coords t) ↔ t.val = 0)
theorem atLast_iff : ∀ t : Fin cfg0.N, atLast (grid0.coords t) ↔ t.val = 31 :=
  (by decide +kernel : ∀ t : Fin grid0.N, atLast (grid0.coords t) ↔ t.val = 31)

/-- The block of x is staged at every point. -/
theorem live0_0 : ∀ t : Fin cfg0.N, cfg0.idle 0 (grid0.coords t) = false := by decide +kernel
/-- The two result rows are idle, and not written back, at every point but the last; -/
theorem idle0_1 : ∀ t : Fin cfg0.N, ¬ atLast (grid0.coords t) → cfg0.idle 1 (grid0.coords t) = true := by decide +kernel
theorem idle0_2 : ∀ t : Fin cfg0.N, ¬ atLast (grid0.coords t) → cfg0.idle 2 (grid0.coords t) = true := by decide +kernel
theorem noFlush0_1 : ∀ t : Fin cfg0.N, ¬ atLast (grid0.coords t) → (cfg0.win 1).flush t = false := by decide +kernel
theorem noFlush0_2 : ∀ t : Fin cfg0.N, ¬ atLast (grid0.coords t) → (cfg0.win 2).flush t = false := by decide +kernel
/-- and live at the last. -/
theorem live0_1 : ∀ t : Fin cfg0.N, atLast (grid0.coords t) → cfg0.idle 1 (grid0.coords t) = false := by decide +kernel
theorem live0_2 : ∀ t : Fin cfg0.N, atLast (grid0.coords t) → cfg0.idle 2 (grid0.coords t) = false := by decide +kernel

/-! ## The statistics kernel -/

set_option maxHeartbeats 1000000 in
/-- The first point: whatever the scratch rows held, they end at the block's column sums added to the cleared row. -/
theorem stats_first (c : Dev nD) (E : Set ℕ) (i : grid0.Coords)
    (arg1 : Memref sig .tc .vmem S4096x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (h1 : atFirst i) (h2 : ¬ atLast i)
    (x0 : Vec F S4096x512 .f32) (y1 y2 : Vec F S1x512 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k0_pay3 x0 k0_pay1) ∗ owns (c : Thread nD τ) arg5 fullShare (k0_pay4 x0 k0_pay2)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact h1 | exact h2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    sl_unfold_run_names
    refine (View.read_writes_eq_canon _ _ _ (fun y => ⟨_, List.mem_cons_self, View.mem_set_unit_zero hz2 inb_S1x512_S1x512_0_0 y⟩)).trans ?_
    rw [View.canon_cons_unit_zero hz2]
    simp only [View.readAt_eq_ld, View.ld_unit_zero (S := S4096x512) hz2, View.ld_unit_zero (S := S1x512) hz2,
      View.readCov_unit_zero (S := S1x512) _ hz2 inb_S1x512_S1x512_0_0, View.readCov_cons_whole (S := S1x512) _ hz2 inb_S1x512_S1x512_0_0]
  iexists _; isplitr
  swap; · iexact H4
  ipureintro
  sl_unfold_run_names
  refine (View.read_writes_eq_canon _ _ _ (fun y => ⟨_, List.mem_cons_self, View.mem_set_unit_zero hz2 inb_S1x512_S1x512_0_0 y⟩)).trans ?_
  rw [View.canon_cons_unit_zero hz2]
  simp only [View.readAt_eq_ld, View.ld_unit_zero (S := S4096x512) hz2, View.ld_unit_zero (S := S1x512) hz2,
    View.readCov_unit_zero (S := S1x512) _ hz2 inb_S1x512_S1x512_0_0, View.readCov_cons_whole (S := S1x512) _ hz2 inb_S1x512_S1x512_0_0]

set_option maxHeartbeats 1000000 in
/-- A middle point: each scratch row ends at the block's contribution added to what it held. -/
theorem stats_mid (c : Dev nD) (E : Set ℕ) (i : grid0.Coords)
    (arg1 : Memref sig .tc .vmem S4096x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (h1 : ¬ atFirst i) (h2 : ¬ atLast i)
    (x0 : Vec F S4096x512 .f32) (y1 y2 s0 s1 : Vec F S1x512 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (k0_pay3 x0 s0) ∗ owns (c : Thread nD τ) arg5 fullShare (k0_pay4 x0 s1)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact h1 | exact h2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    sl_unfold_run_names
    refine (View.read_writes_eq_canon _ _ _ (fun y => ⟨_, List.mem_cons_self, View.mem_set_unit_zero hz2 inb_S1x512_S1x512_0_0 y⟩)).trans ?_
    rw [View.canon_cons_unit_zero hz2]
    simp only [View.readAt_eq_ld, View.ld_unit_zero (S := S4096x512) hz2, View.ld_unit_zero (S := S1x512) hz2,
      View.readCov_unit_zero (S := S1x512) _ hz2 inb_S1x512_S1x512_0_0, View.readCov_cons_whole (S := S1x512) _ hz2 inb_S1x512_S1x512_0_0]
  iexists _; isplitr
  swap; · iexact H4
  ipureintro
  sl_unfold_run_names
  refine (View.read_writes_eq_canon _ _ _ (fun y => ⟨_, List.mem_cons_self, View.mem_set_unit_zero hz2 inb_S1x512_S1x512_0_0 y⟩)).trans ?_
  rw [View.canon_cons_unit_zero hz2]
  simp only [View.readAt_eq_ld, View.ld_unit_zero (S := S4096x512) hz2, View.ld_unit_zero (S := S1x512) hz2,
    View.readCov_unit_zero (S := S1x512) _ hz2 inb_S1x512_S1x512_0_0, View.readCov_cons_whole (S := S1x512) _ hz2 inb_S1x512_S1x512_0_0]

set_option maxHeartbeats 1000000 in
/-- The last point: the scratch rows are updated as at a middle point and then copied into the two result rows. -/
theorem stats_last (c : Dev nD) (E : Set ℕ) (i : grid0.Coords)
    (arg1 : Memref sig .tc .vmem S4096x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (h1 : ¬ atFirst i) (h2 : atLast i)
    (x0 : Vec F S4096x512 .f32) (s0 s1 : Vec F S1x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k0_pay3 x0 s0) ∗ owns (c : Thread nD τ) arg3 fullShare (k0_pay4 x0 s1)
            ∗ owns (c : Thread nD τ) arg4 fullShare (k0_pay3 x0 s0) ∗ owns (c : Thread nD τ) arg5 fullShare (k0_pay4 x0 s1)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0; subst hf3; subst hf4
  sl_exec (disch := first | exact h1 | exact h2)
  sl_step
  iapply Hk
  isplitl [H0]; · iexists f0; isplitr; · ipureintro; rfl
                  iexact H0
  isplitl [H1]
  · iexists _; isplitr
    swap; · iexact H1
    ipureintro
    sl_unfold_run_names
    refine (View.read_writes_eq_canon _ _ _ (fun y => ⟨_, List.mem_cons_self, View.mem_set_unit_zero hz2 inb_S1x512_S1x512_0_0 y⟩)).trans ?_
    rw [View.canon_cons_unit_zero hz2]
    simp only [View.readAt_eq_ld, View.ld_unit_zero (S := S4096x512) hz2, View.ld_unit_zero (S := S1x512) hz2,
      View.readCov_unit_zero (S := S1x512) _ hz2 inb_S1x512_S1x512_0_0, View.readCov_cons_whole (S := S1x512) _ hz2 inb_S1x512_S1x512_0_0]
  isplitl [H2]
  · iexists _; isplitr
    swap; · iexact H2
    ipureintro
    sl_unfold_run_names
    refine (View.read_writes_eq_canon _ _ _ (fun y => ⟨_, List.mem_cons_self, View.mem_set_unit_zero hz2 inb_S1x512_S1x512_0_0 y⟩)).trans ?_
    rw [View.canon_cons_unit_zero hz2]
    simp only [View.readAt_eq_ld, View.ld_unit_zero (S := S4096x512) hz2, View.ld_unit_zero (S := S1x512) hz2,
      View.readCov_unit_zero (S := S1x512) _ hz2 inb_S1x512_S1x512_0_0, View.readCov_cons_whole (S := S1x512) _ hz2 inb_S1x512_S1x512_0_0]
  isplitl [H3]
  · iexists _; isplitr
    swap; · iexact H3
    ipureintro
    sl_unfold_run_names
    refine (View.read_writes_eq_canon _ _ _ (fun y => ⟨_, List.mem_cons_self, View.mem_set_unit_zero hz2 inb_S1x512_S1x512_0_0 y⟩)).trans ?_
    rw [View.canon_cons_unit_zero hz2]
    simp only [View.readAt_eq_ld, View.ld_unit_zero (S := S4096x512) hz2, View.ld_unit_zero (S := S1x512) hz2,
      View.readCov_unit_zero (S := S1x512) _ hz2 inb_S1x512_S1x512_0_0, View.readCov_cons_whole (S := S1x512) _ hz2 inb_S1x512_S1x512_0_0]
  iexists _; isplitr
  swap; · iexact H4
  ipureintro
  sl_unfold_run_names
  refine (View.read_writes_eq_canon _ _ _ (fun y => ⟨_, List.mem_cons_self, View.mem_set_unit_zero hz2 inb_S1x512_S1x512_0_0 y⟩)).trans ?_
  rw [View.canon_cons_unit_zero hz2]
  simp only [View.readAt_eq_ld, View.ld_unit_zero (S := S4096x512) hz2, View.ld_unit_zero (S := S1x512) hz2,
    View.readCov_unit_zero (S := S1x512) _ hz2 inb_S1x512_S1x512_0_0, View.readCov_cons_whole (S := S1x512) _ hz2 inb_S1x512_S1x512_0_0]

/-! ## The main kernel -/

set_option maxHeartbeats 1000000 in
/-- Every point: the result block ends at the body's arithmetic of the five inputs, which are left as they were. -/
theorem main_step (c : Dev nD) (E : Set ℕ) (i : grid1.Coords)
    (arg1 : Memref sig .tc .vmem S2048x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S2048x512 .f32) (harg6 : arg6.IsWhole)
    (x0 : Vec F S2048x512 .f32) (x1 x2 : Vec F S1x512 .f32) (x3 : Vec F S512x512 .bf16) (x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay1 x0 x1 x2 x3 x4)) -∗ K ⟨⟩))
      ⊢ wp frame (wpE (defs₀ (F := F)) Variants.none c none) E
          (cc1__main_kernel i arg1 harg1 arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  refine (View.read_writes_eq_canon _ _ _ (fun y => ⟨_, List.mem_cons_self, View.mem_set_unit_zero hz2 inb_S2048x512_S2048x512_0_0 y⟩)).trans ?_
  rw [View.canon_cons_unit_zero hz2]
  simp only [View.readAt_eq_ld, View.ld_unit_zero (S := S2048x512) hz2, View.ld_unit_zero (S := S1x512) hz2, View.ld_unit_zero (S := S512x512) hz2]

end Cert.KernelIdeal.Steps

end
-- ==== Proof.StatsRegionIdeal.lean ====
import proofs.«147775_j69630009803372_1_alg».proof.Proof.StepsIdeal

set_option maxRecDepth 16384

/-!
  The statistics region: what the pipeline's buffers hold from point to point.

  The region runs 32 grid points; point t stages rows 4096·t … 4096·t + 4095 of x.  Two scratch rows are carried
  from point to point.  Writing x_t for the block of point t, the rows after point t are

      acc 0       = (column sums of x_0 added to the cleared row, column sums of x_0² added to the cleared row)
      acc (t + 1) = (column sums of x_(t+1) added to (acc t).1,   column sums of x_(t+1)² added to (acc t).2)

  with the additions and sums exactly as the body spells them (`k0_pay3`, `k0_pay4`).  The two result rows are
  written at the last point only, where they receive acc 31; at the other points their buffers are handed back
  untouched.  The region's invariant says that between two points the scratch rows hold acc of the point before.
-/

noncomputable section

namespace Cert.KernelIdeal.Stats

open Cert.KernelIdeal Cert.KernelIdeal.Gen Cert.KernelIdeal.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staged block of x is its block of the array at every point, for any proof data over these arrays whose body
    leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The running rows -/

/-- The two scratch rows after point `n`. -/
def acc (c : Dev nD) : (n : ℕ) → n < cfg0.N → Vec F S1x512 .f32 × Vec F S1x512 .f32
  | 0, hn => (k0_pay3 (iblk0 V c 0 ⟨0, hn⟩) k0_pay1, k0_pay4 (iblk0 V c 0 ⟨0, hn⟩) k0_pay2)
  | n + 1, hn => (k0_pay3 (iblk0 V c 0 ⟨n + 1, hn⟩) (acc c n (Nat.lt_of_succ_lt hn)).1,
      k0_pay4 (iblk0 V c 0 ⟨n + 1, hn⟩) (acc c n (Nat.lt_of_succ_lt hn)).2)

theorem acc_first (c : Dev nD) (t : Fin cfg0.N) (hz : t.val = 0) :
    acc V c t.val t.isLt = (k0_pay3 (iblk0 V c 0 t) k0_pay1, k0_pay4 (iblk0 V c 0 t) k0_pay2) := by
  obtain ⟨n, hn⟩ := t
  cases n with
  | zero => rfl
  | succ n => exact absurd hz (Nat.succ_ne_zero n)

theorem acc_next (c : Dev nD) (t : Fin cfg0.N) (hz : t.val ≠ 0) :
    acc V c t.val t.isLt = (k0_pay3 (iblk0 V c 0 t) (acc V c (t.val - 1) (Nat.lt_of_le_of_lt (Nat.sub_le _ _) t.isLt)).1,
      k0_pay4 (iblk0 V c 0 t) (acc V c (t.val - 1) (Nat.lt_of_le_of_lt (Nat.sub_le _ _) t.isLt)).2) := by
  obtain ⟨n, hn⟩ := t
  cases n with
  | zero => exact absurd rfl hz
  | succ n => rfl

/-! ## The invariant -/

/-- The two scratch rows, as memrefs. -/
abbrev scM0 : Memref sig .tc .vmem S1x512 .f32 := Memref.whole cc0_scratch0
abbrev scM1 : Memref sig .tc .vmem S1x512 .f32 := Memref.whole cc0_scratch1

/-- The scoped buffers this region does not stage are the two scratch rows and a rest (the other region's staging
    buffers), each whole at some contents. -/
theorem scoped_split (c : Dev nD) : ∃ R : sProp 𝕄,
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f) ∗ R) :=
  ⟨_, scopedRest0_eq c⟩

/-- That rest. -/
def otherScoped (c : Dev nD) : sProp 𝕄 := Classical.choose (scoped_split (F := F) c)

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f) ∗ otherScoped (F := F) c) :=
  Classical.choose_spec (scoped_split (F := F) c)

/-- The class's invariant with the two scratch rows as memrefs owned at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ otherScoped (F := F) c)
          ∗ (∃ r, prngReg c r)) := by
  unfold Pipeline.ΦA; rw [scopedRest0_split]; simp only [scM0, scM1, owns_whole]; try rfl

/-- The region's invariant before position `n`: before the first point every scratch at anything; afterwards the two
    scratch rows at what the point before left. -/
def PhiS (c : Dev nD) : (n : ℕ) → n ≤ cfg0.N → sProp 𝕄
  | 0, _ => Pipeline.ΦA spec0 c
  | n + 1, hn => iprop((owns (c : Thread nD τ) scM0 fullShare (acc V c n hn).1 ∗ owns (c : Thread nD τ) scM1 fullShare (acc V c n hn).2
        ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0 fullShare (acc V c n hn).1 ∗ owns (c : Thread nD τ) scM1 fullShare (acc V c n hn).2
        ∗ otherScoped (F := F) c) ∗ (∃ r, prngReg c r)) := rfl

theorem PhiS_pos (c : Dev nD) (n : ℕ) (h : n ≤ cfg0.N) (hz : n ≠ 0) :
    PhiS V c n h = iprop((owns (c : Thread nD τ) scM0 fullShare (acc V c (n - 1) (by omega)).1
        ∗ owns (c : Thread nD τ) scM1 fullShare (acc V c (n - 1) (by omega)).2
        ∗ otherScoped (F := F) c) ∗ (∃ r, prngReg c r)) := by
  cases n with
  | zero => exact absurd rfl hz
  | succ n => rfl

/-! ## The proof data -/

/-- The arrays as the region finds them; after the body the block of x in place and the result rows at the running
    rows; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (acc V c t.val t.isLt).1
    | ⟨2, _⟩ => (acc V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (acc V c t.val t.isLt).1 := by dsimp only [dat0]
theorem after0_2 (c : Dev nD) (t : Fin cfg0.N) : (dat0 V c).after 2 t = (acc V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point.  Which of the three cases the point is in is decided by its position; the invariant hands
    the body the scratch rows at what the point before left (at anything, at the first point) and takes them back at
    this point's running rows. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  have hN : t.val < 32 := lt_of_lt_of_eq t.isLt (show cfg0.N = 32 from N_0)
  by_cases hl : t.val = 31
  · -- the last point
    have hL : atLast (grid0.coords t) := (atLast_iff t).mpr hl
    have hF : ¬ atFirst (grid0.coords t) := fun h => by have := (atFirst_iff t).mp h; omega
    have hz : t.val ≠ 0 := by omega
    rw [show (dat0 V c).leavesExact 1 t = owns (c : Thread nD τ) (st0_1 t) fullShare ((dat0 V c).after 1 t) from by
      unfold Dat.leavesExact; rw [live0_1 t hL], after0_1]
    rw [show (dat0 V c).leavesExact 2 t = owns (c : Thread nD τ) (st0_2 t) fullShare ((dat0 V c).after 2 t) from by
      unfold Dat.leavesExact; rw [live0_2 t hL], after0_2]
    rw [PhiS_castSucc V c t, PhiS_pos V c _ _ hz, acc_next V c t hz]
    dsimp only
    iintro ⟨⟨⟨HS0, HS1, Hr⟩, Hg⟩, Ho, ⟨%d0, H0⟩, ⟨%d1, H1⟩, ⟨%d2, H2⟩⟩
    iapply (stats_last c Set.univ (grid0.coords t) _ _ _ _ _ _ _ _ _ _ hF hL (iblk0 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    iexact H2
  · have hL : ¬ atLast (grid0.coords t) := fun h => hl ((atLast_iff t).mp h)
    rw [Dat.leavesExact_idle (dat0 V c) 1 t (idle0_1 t hL) (noFlush0_1 t hL)]
    rw [Dat.leavesExact_idle (dat0 V c) 2 t (idle0_2 t hL) (noFlush0_2 t hL)]
    by_cases hz : t.val = 0
    · -- the first point
      have hF : atFirst (grid0.coords t) := (atFirst_iff t).mpr hz
      rw [PhiS_castSucc V c t, PhiS_zero V c _ _ hz, PhiA0_eq, acc_first V c t hz]
      dsimp only
      iintro ⟨⟨⟨HS0, HS1, Hr⟩, Hg⟩, Ho, ⟨%d0, H0⟩, ⟨%d1, H1⟩, ⟨%d2, H2⟩⟩
      iapply (stats_first c Set.univ (grid0.coords t) _ _ _ _ _ _ _ _ _ _ hF hL (iblk0 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexists _; iexact H1
      iexists _; iexact H2
    · -- a middle point
      have hF : ¬ atFirst (grid0.coords t) := fun h => hz ((atFirst_iff t).mp h)
      rw [PhiS_castSucc V c t, PhiS_pos V c _ _ hz, acc_next V c t hz]
      dsimp only
      iintro ⟨⟨⟨HS0, HS1, Hr⟩, Hg⟩, Ho, ⟨%d0, H0⟩, ⟨%d1, H1⟩, ⟨%d2, H2⟩⟩
      iapply (stats_mid c Set.univ (grid0.coords t) _ _ _ _ _ _ _ _ _ _ hF hL (iblk0 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexists _; iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch rows' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Cert.KernelIdeal.Stats

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.PayloadAt.lean ====
import proofs.«147775_j69630009803372_1_alg».proof.Proof.Gen.KernelIdeal.Skeleton
import proofs.«147775_j69630009803372_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

/-!
  The kernels' arithmetic read at an index, over the extended reals.

  For a 4096-row block x and a row s, the statistics kernel's two updates are, at column q,

      s(q) + ∑ r, x(r, q)            and            s(q) + ∑ r, x(r, q) · x(r, q):

  the lane reduction into the zero accumulator is the plain sum over the block's rows, and the casts between a
  512-vector and a 1×512 row move nothing.  For a 2048-row block x, a scale row a, a shift row d, a 512×512 weight W
  and a bias row e, the main kernel's result at (p, q) is

      (∑ k, spike(x(p, k) · a(k) + d(k)) · W(k, q)) + e(q),

  where spike(y) is 1 when y > 0 and 0 otherwise (the comparison's bit, widened and converted): the matrix product
  into the zero accumulator is the plain sum over the contracted coordinate, and a change of float format is the
  identity.
-/

noncomputable section

namespace Cert.KernelIdeal.Payload

open Cert.KernelIdeal Cert.KernelIdeal.Gen
open Idealize.ShloMosaic Idealize.ShloMosaic.ValueIdx

/-- The reduced column index with row `k` put back is (k, q). -/
theorem lift_col (h : S4096x512.Reduces [0] S512) (q : Fin 512) (k : Fin (S4096x512.size 0)) :
    h.lift (ix1 q) k = ix2 (⟨k.val, k.isLt⟩ : Fin 4096) q := by
  funext c; apply Fin.ext
  fin_cases c <;> rfl

/-- The column sums of a block, kept as a 1×512 row: at column q the sum over the block's 4096 rows. -/
theorem colsum_row (x : FVec Ideal S4096x512 .f32) (hacc : (0x00000000#32 : BitVec 32) = 0x00000000#32) (u : Fin 1) (q : Fin 512) :
    shapeCast S1x512 (multiReduction .add [0] S512 x 0x00000000#32 reduces_S4096x512_S512 (.inl rfl) hacc) shapeCasts_S512_S1x512 (ix2 u q)
      = ∑ r : Fin 4096, x (ix2 r q) := by
  refine (shapeCast_a_1a_apply _ shapeCasts_S512_S1x512 u q).trans ?_
  refine (Ideal.multiReduction_add_single x 0x00000000#32 reduces_S4096x512_S512 (.inl rfl) hacc (ix1 q)).trans ?_
  exact Finset.sum_congr rfl fun k _ => congrArg x (lift_col reduces_S4096x512_S512 q k)

/-- The cleared row is the zero word everywhere. -/
theorem pay1_apply (j : S1x512.Idx) : k0_pay1 (F := Ideal) j = Ideal.ofBits .f32 0x00000000#32 := by
  show shapeCast S1x512 (broadcast S1x512 (Scalar.ofBits (F := Ideal) .f32 0x00000000#32)) shapeCasts_S1x512_S1x512 j = _
  rw [shapeCast_self]; rfl
theorem pay2_apply (j : S1x512.Idx) : k0_pay2 (F := Ideal) j = Ideal.ofBits .f32 0x00000000#32 := by
  show shapeCast S1x512 (broadcast S1x512 (Scalar.ofBits (F := Ideal) .f32 0x00000000#32)) shapeCasts_S1x512_S1x512 j = _
  rw [shapeCast_self]; rfl

/-- The first running row's update: the row plus the block's column sums. -/
theorem pay3_apply (x : FVec Ideal S4096x512 .f32) (s : FVec Ideal S1x512 .f32) (u : Fin 1) (q : Fin 512) :
    k0_pay3 x s (ix2 u q) = s (ix2 u q) + ∑ r : Fin 4096, x (ix2 r q) := by
  show shapeCast S1x512 (addf s (shapeCast S1x512 (multiReduction .add [0] S512 x 0x00000000#32 reduces_S4096x512_S512 (.inl rfl) rfl) shapeCasts_S512_S1x512)) shapeCasts_S1x512_S1x512 (ix2 u q) = _
  rw [shapeCast_self, addf_apply, colsum_row x rfl u q]

/-- The second running row's update: the row plus the column sums of the block's squares. -/
theorem pay4_apply (x : FVec Ideal S4096x512 .f32) (s : FVec Ideal S1x512 .f32) (u : Fin 1) (q : Fin 512) :
    k0_pay4 x s (ix2 u q) = s (ix2 u q) + ∑ r : Fin 4096, x (ix2 r q) * x (ix2 r q) := by
  show shapeCast S1x512 (addf s (shapeCast S1x512 (multiReduction .add [0] S512 (mulf x x) 0x00000000#32 reduces_S4096x512_S512 (.inl rfl) rfl) shapeCasts_S512_S1x512)) shapeCasts_S1x512_S1x512 (ix2 u q) = _
  rw [shapeCast_self, addf_apply, colsum_row (mulf x x) rfl u q]
  rfl

/-- The comparison's bit as a float: 1 above zero, 0 otherwise. -/
def spike (y : EReal) : EReal :=
  FloatOps.sitofp (F := Ideal) .f32 ((FloatOps.cmpf (F := Ideal) .ogt y (Ideal.ofBits .f32 0x00000000#32)).setWidth 32)

/-- The kernel's contraction is the plain one. -/
theorem dot_plain : dot_S2048x512_S512x512_S2048x512_1_0_0_1_n_n = DotDims.plain 2048 512 512 := rfl

/-- The main kernel's result at (p, q). -/
theorem main_pay_apply (x0 : FVec Ideal S2048x512 .f32) (x1 x2 : FVec Ideal S1x512 .f32) (x3 : FVec Ideal S512x512 .bf16)
    (x4 : FVec Ideal S1x512 .f32) (p : Fin 2048) (q : Fin 512) :
    k1_pay1 (F := Ideal) x0 x1 x2 x3 x4 (ix2 p q)
      = (∑ k : Fin 512, spike (x0 (ix2 p k) * x1 (ix2 (0 : Fin 1) k) + x2 (ix2 (0 : Fin 1) k)) * x3 (ix2 k q)) + x4 (ix2 (0 : Fin 1) q) := by
  show addf (matmul dot_S2048x512_S512x512_S2048x512_1_0_0_1_n_n none
      (truncf .bf16 (sitofp .f32 (extui 32 (cmpf .ogt (addf (mulf x0 (broadcastTo S2048x512 (shapeCast S1x512 x1 shapeCasts_S1x512_S1x512) broadcasts_S1x512_S2048x512))
        (broadcastTo S2048x512 (shapeCast S1x512 x2 shapeCasts_S1x512_S1x512) broadcasts_S1x512_S2048x512)) (broadcast S2048x512 (Scalar.ofBits (F := Ideal) .f32 0x00000000#32))) natLt_1_32)) bitsLt_bf16_f32)
      (shapeCast S512x512 x3 shapeCasts_S512x512_S512x512) (constant S2048x512 .f32 0x00000000#32))
    (broadcastTo S2048x512 (shapeCast S1x512 x4 shapeCasts_S1x512_S1x512) broadcasts_S1x512_S2048x512) (ix2 p q) = _
  rw [addf_apply, shapeCast_self, shapeCast_self, shapeCast_self, shapeCast_self, broadcastTo_1b_ab_apply x4, dot_plain,
    Cert.LibMatmulPlain.matmul_plain_zero_apply]
  refine congrArg (· + x4 (ix2 (0 : Fin 1) q)) (Finset.sum_congr rfl fun k _ => ?_)
  refine congrArg (· * x3 (ix2 k q)) ?_
  show spike (x0 (ix2 p k) * broadcastTo S2048x512 x1 broadcasts_S1x512_S2048x512 (ix2 p k) + broadcastTo S2048x512 x2 broadcasts_S1x512_S2048x512 (ix2 p k)) = _
  rw [broadcastTo_1b_ab_apply x1, broadcastTo_1b_ab_apply x2]

end Cert.KernelIdeal.Payload

end
-- ==== Proof.LibBlockSum.lean ====
/-
  Sums over a range cut into equal blocks.

  A sum over `n * b` consecutive indices is the sum, over the `n` blocks, of the sum over the `b` indices of each
  block: index `q` of block `j` is the index `q + b * j` of the whole range, and every index of the whole range
  is of this form exactly once.  The same at the sizes 16 blocks of 512, written with a range of block numbers;
  and a sum over the first `n + 1` block numbers is the sum over the first `n` plus the last term.
-/
import Mathlib.Algebra.BigOperators.Fin
import Mathlib.Algebra.BigOperators.Group.Finset.Basic
import Mathlib.Data.Fintype.BigOperators
import Mathlib.Logic.Equiv.Fin.Basic

open scoped BigOperators

namespace Cert.LibBlockSum

/-- Index `q` of block `j`, among `n` blocks of `b` indices each, is the index `q + b * j` of the whole range. -/
theorem finProd_val {n b : ℕ} (j : Fin n) (q : Fin b) : (finProdFinEquiv (j, q)).val = q.val + b * j.val := rfl

/-- The sum over the blocks of the sums over each block is the sum over the whole range of `n * b` indices. -/
theorem sum_blocks {M : Type*} [AddCommMonoid M] {n b : ℕ} (f : Fin (n * b) → M) :
    ∑ j : Fin n, ∑ q : Fin b, f (finProdFinEquiv (j, q)) = ∑ i, f i :=
  (Fintype.sum_prod_type' fun (j : Fin n) (q : Fin b) => f (finProdFinEquiv (j, q))).symm.trans
    (Equiv.sum_comp finProdFinEquiv f)

/-- The same for 8192 indices cut into 16 blocks of 512, the block number running over a range of naturals:
    index `q` of block `j` is `512 * j + q`, which is below 8192 for every block number below 16. -/
theorem sum_blocks_8192 {M : Type*} [AddCommMonoid M] (f : Fin 8192 → M) :
    ∑ j ∈ Finset.range 16, ∑ q : Fin 512, (if h : 512 * j + q.val < 8192 then f ⟨512 * j + q.val, h⟩ else 0)
      = ∑ i, f i := by
  refine Eq.trans ?_ (sum_blocks (n := 16) (b := 512) f)
  rw [Finset.sum_range fun j => ∑ q : Fin 512, (if h : 512 * j + q.val < 8192 then f ⟨512 * j + q.val, h⟩ else 0)]
  refine Finset.sum_congr rfl fun j _ => Finset.sum_congr rfl fun q _ => ?_
  have hlt : 512 * j.val + q.val < 8192 := by have := j.isLt; have := q.isLt; omega
  rw [dif_pos hlt]
  exact congrArg f (Fin.ext (by show 512 * j.val + q.val = q.val + 512 * j.val; omega))

/-- A sum over the first `n + 1` naturals is the sum over the first `n` plus the term at `n`. -/
theorem sum_range_step {M : Type*} [AddCommMonoid M] (g : ℕ → M) (n : ℕ) :
    ∑ j ∈ Finset.range (n + 1), g j = (∑ j ∈ Finset.range n, g j) + g n :=
  Finset.sum_range_succ g n

end Cert.LibBlockSum
-- ==== Proof.StatsValue.lean ====
import proofs.«147775_j69630009803372_1_alg».proof.Proof.StatsRegionIdeal
import proofs.«147775_j69630009803372_1_alg».proof.Proof.PayloadAt
import proofs.«147775_j69630009803372_1_alg».proof.Proof.LibBlockSum

set_option maxRecDepth 16384

/-!
  What the statistics region leaves: the two rows of column sums.

  Row r of the block staged at point t is row 4096·t + r of x.  So after point n the first running row holds, at
  column q, the zero word plus the sum over the rows of blocks 0 … n of x(·, q), and the second the same sum of
  squares: each point adds its block's column sum to what the point before left.  At the last point, n = 31, the
  blocks are all 32 · 4096 = 131072 rows, and the rows are copied out; that one write-back covers each result
  array, so the arrays end holding

      zero + ∑ over all rows n of x(n, q)      and      zero + ∑ over all rows n of x(n, q) · x(n, q).

  Sums here are sums in the extended reals, where addition is commutative and associative without any finiteness.
-/

noncomputable section

namespace Cert.KernelIdeal.StatsValue

open Cert.KernelIdeal Cert.KernelIdeal.Gen Cert.KernelIdeal.Steps Cert.KernelIdeal.Stats Cert.KernelIdeal.Payload
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! ## The blocks of x -/

/-- The block of x at point t is block (t, 0). -/
theorem idx_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry (n, q) of x as the region finds it. -/
abbrev xAt (c : Dev nD) (q : Fin 512) (n : Fin 131072) : EReal := V c main_arg0 (ix2 n q)

/-- The block of x staged at point t, as a 4096×512 array of extended reals. -/
abbrev blkX (c : Dev nD) (t : Fin cfg0.N) : FVec Ideal S4096x512 .f32 := iblk0 V c 0 t

/-- Row r of the block of point t is row 4096·t + r of x. -/
theorem blk_x (c : Dev nD) (t : Fin cfg0.N) (r : Fin 4096) (q : Fin 512) (h : 4096 * t.val + r.val < 131072) :
    blkX V c t (ix2 r q) = xAt V c q ⟨4096 * t.val + r.val, h⟩ := by
  obtain ⟨e0, e1⟩ := idx_x t
  show V c main_arg0 (((cfg0.win 0).blk t).view.emb (ix2 r q)) = _
  refine congrArg _ (funext fun a => Fin.ext ?_)
  match a with
  | ⟨0, _⟩ => show win0_0.index t (0 : Fin 2) * 4096 + 1 * r.val = 4096 * t.val + r.val; omega
  | ⟨1, _⟩ => show win0_0.index t (1 : Fin 2) * 512 + 1 * q.val = q.val; omega

/-! ## The running rows as partial sums -/

/-- The sum of f over block j of a column (zero past the last block). -/
def blockSum (f : Fin 131072 → EReal) (j : ℕ) : EReal :=
  if h : j < 32 then ∑ r : Fin 4096, f ⟨4096 * j + r.val, by have := r.isLt; omega⟩ else 0

/-- A block's column sum is the block sum of the column. -/
theorem colsum_blk (c : Dev nD) (t : Fin cfg0.N) (q : Fin 512) :
    ∑ r : Fin 4096, blkX V c t (ix2 r q) = blockSum (xAt V c q) t.val := by
  have ht : t.val < 32 := lt_of_lt_of_eq t.isLt (show cfg0.N = 32 from N_0)
  unfold blockSum; rw [dif_pos ht]
  exact Finset.sum_congr rfl fun r _ => blk_x V c t r q _

theorem colsumsq_blk (c : Dev nD) (t : Fin cfg0.N) (q : Fin 512) :
    ∑ r : Fin 4096, blkX V c t (ix2 r q) * blkX V c t (ix2 r q) = blockSum (fun n => xAt V c q n * xAt V c q n) t.val := by
  have ht : t.val < 32 := lt_of_lt_of_eq t.isLt (show cfg0.N = 32 from N_0)
  unfold blockSum; rw [dif_pos ht]
  exact Finset.sum_congr rfl fun r _ => by rw [blk_x V c t r q _]

/-- After point n the running rows hold the zero word plus the block sums of blocks 0 … n. -/
theorem acc_sums (c : Dev nD) (u : Fin 1) (q : Fin 512) : ∀ (n : ℕ) (hn : n < cfg0.N),
    (acc V c n hn).1 (ix2 u q) = Ideal.ofBits .f32 0x00000000#32 + ∑ j ∈ Finset.range (n + 1), blockSum (xAt V c q) j
    ∧ (acc V c n hn).2 (ix2 u q) = Ideal.ofBits .f32 0x00000000#32 + ∑ j ∈ Finset.range (n + 1), blockSum (fun i => xAt V c q i * xAt V c q i) j
  | 0, hn => by
    constructor
    · show k0_pay3 (F := Ideal) (blkX V c ⟨0, hn⟩) (k0_pay1 (F := Ideal)) (ix2 u q) = _
      rw [pay3_apply, pay1_apply, colsum_blk V c ⟨0, hn⟩ q, Finset.sum_range_one]
    · show k0_pay4 (F := Ideal) (blkX V c ⟨0, hn⟩) (k0_pay2 (F := Ideal)) (ix2 u q) = _
      rw [pay4_apply, pay2_apply, colsumsq_blk V c ⟨0, hn⟩ q, Finset.sum_range_one]
  | n + 1, hn => by
    obtain ⟨ih1, ih2⟩ := acc_sums c u q n (Nat.lt_of_succ_lt hn)
    constructor
    · show k0_pay3 (F := Ideal) (blkX V c ⟨n + 1, hn⟩) (acc V c n (Nat.lt_of_succ_lt hn)).1 (ix2 u q) = _
      rw [pay3_apply, ih1, colsum_blk V c ⟨n + 1, hn⟩ q, Finset.sum_range_succ _ (n + 1), add_assoc]
    · show k0_pay4 (F := Ideal) (blkX V c ⟨n + 1, hn⟩) (acc V c n (Nat.lt_of_succ_lt hn)).2 (ix2 u q) = _
      rw [pay4_apply, ih2, colsumsq_blk V c ⟨n + 1, hn⟩ q, Finset.sum_range_succ _ (n + 1), add_assoc]

/-- The 32 block sums of a column add up to the sum over all 131072 rows. -/
theorem sum_blockSum (f : Fin 131072 → EReal) : ∑ j ∈ Finset.range 32, blockSum f j = ∑ n : Fin 131072, f n := by
  refine Eq.trans ?_ (Cert.LibBlockSum.sum_blocks (n := 32) (b := 4096) f)
  rw [Finset.sum_range fun j => blockSum f j]
  refine Finset.sum_congr rfl fun j _ => ?_
  unfold blockSum; rw [dif_pos j.isLt]
  refine Finset.sum_congr rfl fun r _ => congrArg f (Fin.ext ?_)
  show 4096 * j.val + r.val = r.val + 4096 * j.val
  omega

/-- After the last point the running rows hold the zero word plus the whole columns' sums. -/
theorem acc_last (c : Dev nD) (h31 : 31 < cfg0.N) (u : Fin 1) (q : Fin 512) :
    (acc V c 31 h31).1 (ix2 u q) = Ideal.ofBits .f32 0x00000000#32 + ∑ n : Fin 131072, xAt V c q n
    ∧ (acc V c 31 h31).2 (ix2 u q) = Ideal.ofBits .f32 0x00000000#32 + ∑ n : Fin 131072, xAt V c q n * xAt V c q n := by
  obtain ⟨h1, h2⟩ := acc_sums V c u q 31 h31
  exact ⟨h1.trans (congrArg _ (sum_blockSum _)), h2.trans (congrArg _ (sum_blockSum _))⟩

/-! ## The result arrays -/

theorem h31 : 31 < cfg0.N := by have : cfg0.N = 32 := N_0; omega

/-- Both result rows' one block is block (0, 0), at every point. -/
theorem idx_rows : ∀ t : Fin cfg0.N, (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, (win0_1.index t (0 : Fin 2) = 0 ∧ win0_1.index t (1 : Fin 2) = 0)
    ∧ (win0_2.index t (0 : Fin 2) = 0 ∧ win0_2.index t (1 : Fin 2) = 0))

/-- The first result array ends holding the first running row of the last point. -/
theorem final_sum (c : Dev nD) : (dat0 V c).arrAt 1 cfg0.N = (acc V c 31 h31).1 := by
  refine (dat0 V c).arrAt_eq_of_cover 1 _ (fun t hf => ?_) (fun i => ?_)
  · have ht : t.val = 31 := by have := (flush0_1 t).mp hf; have := lt_of_lt_of_eq t.isLt (show cfg0.N = 32 from N_0); omega
    obtain ⟨⟨e0, e1⟩, -⟩ := idx_rows t
    show (cfg0.win 1).cut (grid0.coords t) ((dat0 V c).after 1 t) = _
    rw [after0_1]
    funext y
    show (acc V c t.val t.isLt).1 y = (acc V c 31 h31).1 (((cfg0.win 1).blk t).view.emb y)
    have he : ((cfg0.win 1).blk t).view.emb y = y := by
      funext a; apply Fin.ext
      match a with
      | ⟨0, _⟩ => show win0_1.index t (0 : Fin 2) * 1 + 1 * (y 0).val = (y 0).val; omega
      | ⟨1, _⟩ => show win0_1.index t (1 : Fin 2) * 512 + 1 * (y 1).val = (y 1).val; omega
    rw [he]
    obtain ⟨n, hn⟩ := t
    have hn31 : n = 31 := ht
    subst hn31
    rfl
  · refine ⟨⟨31, h31⟩, (flush0_1 _).mpr rfl, ?_⟩
    obtain ⟨⟨e0, e1⟩, -⟩ := idx_rows ⟨31, h31⟩
    show i ∈ ((View.whole main_v0_0).slice (win0_1.rect ⟨31, h31⟩)).set
    rw [View.set_slice_whole, Rect.mem_set_unit]
    intro a
    match a with
    | ⟨0, _⟩ => show win0_1.index ⟨31, h31⟩ (0 : Fin 2) * 1 ≤ (i 0).val ∧ (i 0).val < win0_1.index ⟨31, h31⟩ (0 : Fin 2) * 1 + 1; have h0 : (i 0).val < 1 := (i 0).isLt; omega
    | ⟨1, _⟩ => show win0_1.index ⟨31, h31⟩ (1 : Fin 2) * 512 ≤ (i 1).val ∧ (i 1).val < win0_1.index ⟨31, h31⟩ (1 : Fin 2) * 512 + 512; have h1 : (i 1).val < 512 := (i 1).isLt; omega

/-- The second result array ends holding the second running row of the last point. -/
theorem final_sumsq (c : Dev nD) : (dat0 V c).arrAt 2 cfg0.N = (acc V c 31 h31).2 := by
  refine (dat0 V c).arrAt_eq_of_cover 2 _ (fun t hf => ?_) (fun i => ?_)
  · have ht : t.val = 31 := by have := (flush0_2 t).mp hf; have := lt_of_lt_of_eq t.isLt (show cfg0.N = 32 from N_0); omega
    obtain ⟨-, ⟨e0, e1⟩⟩ := idx_rows t
    show (cfg0.win 2).cut (grid0.coords t) ((dat0 V c).after 2 t) = _
    rw [after0_2]
    funext y
    show (acc V c t.val t.isLt).2 y = (acc V c 31 h31).2 (((cfg0.win 2).blk t).view.emb y)
    have he : ((cfg0.win 2).blk t).view.emb y = y := by
      funext a; apply Fin.ext
      match a with
      | ⟨0, _⟩ => show win0_2.index t (0 : Fin 2) * 1 + 1 * (y 0).val = (y 0).val; omega
      | ⟨1, _⟩ => show win0_2.index t (1 : Fin 2) * 512 + 1 * (y 1).val = (y 1).val; omega
    rw [he]
    obtain ⟨n, hn⟩ := t
    have hn31 : n = 31 := ht
    subst hn31
    rfl
  · refine ⟨⟨31, h31⟩, (flush0_2 _).mpr rfl, ?_⟩
    obtain ⟨-, ⟨e0, e1⟩⟩ := idx_rows ⟨31, h31⟩
    show i ∈ ((View.whole main_v0_1).slice (win0_2.rect ⟨31, h31⟩)).set
    rw [View.set_slice_whole, Rect.mem_set_unit]
    intro a
    match a with
    | ⟨0, _⟩ => show win0_2.index ⟨31, h31⟩ (0 : Fin 2) * 1 ≤ (i 0).val ∧ (i 0).val < win0_2.index ⟨31, h31⟩ (0 : Fin 2) * 1 + 1; have h0 : (i 0).val < 1 := (i 0).isLt; omega
    | ⟨1, _⟩ => show win0_2.index ⟨31, h31⟩ (1 : Fin 2) * 512 ≤ (i 1).val ∧ (i 1).val < win0_2.index ⟨31, h31⟩ (1 : Fin 2) * 512 + 512; have h1 : (i 1).val < 512 := (i 1).isLt; omega

end Cert.KernelIdeal.StatsValue

end
-- ==== Proof.MainRegionIdeal.lean ====
import proofs.«147775_j69630009803372_1_alg».proof.Proof.StepsIdeal

set_option maxRecDepth 16384

/-!
  The main region: what the pipeline's buffers hold from point to point.

  The region runs 64 grid points; point t stages rows 2048·t … 2048·t + 2047 of x and the whole of the scale row,
  the shift row, the weight and the bias row (these four are fetched once and stay), and writes back one 2048-row
  block of the result, the body's arithmetic `k1_pay1` of the five staged blocks.  Nothing is carried between
  points, so the region's invariant is the class's.
-/

noncomputable section

namespace Cert.KernelIdeal.Spike

open Cert.KernelIdeal Cert.KernelIdeal.Gen Cert.KernelIdeal.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staged block is its block of the array at every point, fetched there or not, for any proof data
    over these arrays whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The proof data -/

/-- The arrays as the region finds them; after the body each input's buffer at its block and the result's at the
    body's arithmetic of the five; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (main_step c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Spike

end
-- ==== Proof.WholeRunIdeal.lean ====
import proofs.«147775_j69630009803372_1_alg».proof.Proof.StatsRegionIdeal
import proofs.«147775_j69630009803372_1_alg».proof.Proof.MainRegionIdeal
import proofs.«147775_j69630009803372_1_alg».proof.Proof.Gen.KernelIdeal.Regions

set_option maxRecDepth 16384

/-!
  The whole program's run: the statistics region, the host operations between, the main region.

  The buffers' contents at the four boundaries are a fold from the launch memory: `B0` at launch; `B1` after the
  statistics region (its three arrays at what its write-backs leave, everything else as before); `B2` after the
  twenty host operations that turn the two statistics rows into the scale and shift rows; `B3` after the main
  region (its result array at what its write-backs leave).  Every weakly fair execution terminates with every
  unscoped buffer at `B3`; in particular the five arguments as launched (no operation and no region writes one)
  and the result array at the main region's write-backs.
-/

noncomputable section

namespace Cert.KernelIdeal.Run

open Cert.KernelIdeal Cert.KernelIdeal.Gen Cert.KernelIdeal.Steps Cert.KernelIdeal.Stats Cert.KernelIdeal.Spike
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- The same read at the TensorCore's references (what the statistics region's proof data take). -/
abbrev E0 : (c : Dev nD) → (b : Ref sig .tc) → Buf (Elt F) ((c : Thread nD τ).loc b) := fun c b => B0 m ρ c b
/-- After the statistics region: its arrays at what the pipeline leaves, every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem hF0 (c : Dev nD) (w : Fin cfg0.W) : (dat0 (E0 m ρ) c).arrAt w cfg0.N = E1 m ρ c (Pipeline.arrRef spec0 w) :=
  (B1_arr m ρ c w).symm
theorem hrest0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

/-- After the host operations between the regions. -/
abbrev B2 : Dev nD → Valuation τ sig (Elt F) := fun c => StableHlo.after hostOps1 (B1 m ρ c)
abbrev E2 : (c : Dev nD) → (b : Ref sig .tc) → Buf (Elt F) ((c : Thread nD τ).loc b) := fun c b => B2 m ρ c b
/-- After the main region: its arrays at what the pipeline leaves, every other buffer as entered. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ### The arguments end as launched -/

/-- The host operations write none of the references outside their own results. -/
theorem B2_of (c : Dev nD) (r : Ref sig .tc) (h : r ∉ (hostOps1_W : List (Ref sig .tc))) : B2 m ρ c r = B1 m ρ c r :=
  StableHlo.after_of_writes_sub hostOps1 _ hostOps1_writes h

/-- x is staged by both regions and written by neither. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := (B3_arr m ρ c 0).trans (((dat1 (E2 m ρ) c).arrAt_in 0 rfl _).trans (A_eq1 (E2 m ρ) c 0))
    _ = B1 m ρ c (Proc.devRef .tc main_arg0) := B2_of m ρ c main_arg0 (by decide)
    _ = B0 m ρ c (Proc.devRef .tc main_arg0) := (B1_arr m ρ c 0).trans (((dat0 (E0 m ρ) c).arrAt_in 0 rfl _).trans (A_eq0 (E0 m ρ) c 0))
    _ = m ((c : Thread nD τ).loc main_arg0) := rfl
/-- The other four arguments are no window's array. -/
theorem B3_main_arg1 (c : Dev nD) : B3 m ρ c (Proc.devRef .tc main_arg1) = m ((c : Thread nD τ).loc main_arg1) :=
  (B3_of_ne m ρ c main_arg1 (by decide)).trans ((B2_of m ρ c main_arg1 (by decide)).trans ((B1_of_ne m ρ c main_arg1 (by decide)).trans rfl))
theorem B3_main_arg2 (c : Dev nD) : B3 m ρ c (Proc.devRef .tc main_arg2) = m ((c : Thread nD τ).loc main_arg2) :=
  (B3_of_ne m ρ c main_arg2 (by decide)).trans ((B2_of m ρ c main_arg2 (by decide)).trans ((B1_of_ne m ρ c main_arg2 (by decide)).trans rfl))
theorem B3_main_arg3 (c : Dev nD) : B3 m ρ c (Proc.devRef .tc main_arg3) = m ((c : Thread nD τ).loc main_arg3) :=
  (B3_of_ne m ρ c main_arg3 (by decide)).trans ((B2_of m ρ c main_arg3 (by decide)).trans ((B1_of_ne m ρ c main_arg3 (by decide)).trans rfl))
theorem B3_main_arg4 (c : Dev nD) : B3 m ρ c (Proc.devRef .tc main_arg4) = m ((c : Thread nD τ).loc main_arg4) :=
  (B3_of_ne m ρ c main_arg4 (by decide)).trans ((B2_of m ρ c main_arg4 (by decide)).trans ((B1_of_ne m ρ c main_arg4 (by decide)).trans rfl))

/-! ## The proof data family and the thread state -/

/-- No pipeline has a prefetched table. -/
abbrev tables : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) tables p) c
  | ⟨0, _⟩ => fun c => dat0 (E0 m ρ) c
  | ⟨1, _⟩ => fun c => dat1 (E2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- The host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- The statistics region: entered from every unscoped buffer at `B0`, left at `B1`.  The generator register goes
    into the region's invariant and comes back; the scratch rows are among the scoped buffers the invariant takes and
    returns; nothing is owed; the kernel has no semaphore of its own. -/
def reg0 : Pipeline.RegionSeg (pcfgs (F := F)) tables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = (dat0 (E0 m ρ) c).Φ (Fin.last cfg0.N) from rfl]
    have h0 := hout0 (E0 m ρ) c
    unfold Pipeline.ΦA at h0
    iintro H
    ihave H' := h0 $$ H
    icases H' with ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main region: entered from every unscoped buffer at `B2`, left at `B3` (what the launch reads at the end). -/
def reg1 : Pipeline.RegionSeg (pcfgs (F := F)) tables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) tables (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The three segments in order. -/
abbrev parts : List (Pipeline.Seg (pcfgs (F := F)) tables (pdats m ρ) () defs₀ 𝒱₀ L lv) :=
  [ .region (reg0 m ρ),
    .host (hseg hostOps1 hostOps1_sub hostOps1_fresh (B1 m ρ)),
    .region (reg1 m ρ) ]

/-- The program is the run of the segments. -/
theorem main_run (c : Dev nD) : main (F := F) c = Pipeline.Seg.run (parts m ρ) := (main_chain c).trans (by chain_rfl)

set_option backward.isDefEq.respectTransparency.types false in
/-- From any memory with zero counters every weakly fair execution terminates, nothing faulting, and every final
    state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) tables (pdats m ρ) () cellOf_inj emb₁ defs₀ 𝒱₀ L lv m ρ main (parts m ρ)
    (fun c Q => by rw [main_run m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-- The frame: the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c),
     (h c _ (mem_uc main_arg4 (by decide))).trans (B3_main_arg4 m ρ c)⟩) (run_all m ρ)

end Cert.KernelIdeal.Run

end
-- ==== Proof.HostGlue.lean ====
import proofs.«147775_j69630009803372_1_alg».proof.Proof.WholeRunIdeal
import Idealize.ShloMosaic.Lib.ValueIdx
import Idealize.ShloMosaic.Lib.ValueLayout
import Idealize.ShloMosaic.Lib.StableHlo.Run

set_option maxRecDepth 16384

/-!
  The host operations between the two regions, over the extended reals.

  From the two statistics rows A (column sums) and Q (column sums of squares) and the arguments w, b, W, e the host
  computes, with N the word 131072.0 and ε the word of 1e-5, column by column,

      mean  = A / N
      scale = w · rsqrt((Q / N − mean · mean) + ε)
      shift = b − mean · scale

  and hands the main region the scale row, the shift row, the transposed weight (its change of format is the
  identity) and the bias as a row.  Each is read here at an index.  The arguments themselves reach the main region
  as launched: no operation and no region writes one.
-/

noncomputable section

namespace Cert.KernelIdeal.Glue

open Cert.KernelIdeal Cert.KernelIdeal.Gen Cert.KernelIdeal.Run
open Idealize.ShloMosaic Idealize.ShloMosaic.TcCoe Idealize.ShloMosaic.ValueIdx Idealize.SL.Sem Idealize.ShloMosaic.StableHlo

/-! ## The rows as functions of the statistics rows and the arguments -/

/-- The divisor, as a row. -/
def nRow : FVec Ideal S1x512 .f32 := broadcastInDim S1x512 ![] bcast_S_S1x512 (constant (F := Ideal) S_ .f32 0x48000000#32)
/-- The stabiliser, as a row. -/
def epsRow : FVec Ideal S1x512 .f32 := broadcastInDim S1x512 ![] bcast_S_S1x512 (constant (F := Ideal) S_ .f32 0x3727C5AC#32)
/-- The means. -/
def meanRow (A : FVec Ideal S1x512 .f32) : FVec Ideal S1x512 .f32 := Host.divf (F := Ideal) A nRow
/-- The scales. -/
def scaleRow (A Q : FVec Ideal S1x512 .f32) (w : FVec Ideal S512 .f32) : FVec Ideal S1x512 .f32 :=
  mulf (broadcastInDim S1x512 ![1] bcast_S512_S1x512_1 w)
    (Host.rsqrt (F := Ideal) (addf (subf (Host.divf (F := Ideal) Q nRow) (mulf (meanRow A) (meanRow A))) epsRow))
/-- The shifts. -/
def shiftRow (A Q : FVec Ideal S1x512 .f32) (w b : FVec Ideal S512 .f32) : FVec Ideal S1x512 .f32 :=
  subf (broadcastInDim S1x512 ![1] bcast_S512_S1x512_1 b) (mulf (meanRow A) (scaleRow A Q w))

/-! ## Read at an index -/

theorem nRow_apply (i : S1x512.Idx) : nRow i = Ideal.ofBits .f32 0x48000000#32 := by
  unfold nRow
  exact broadcastInDim_apply _ bcast_S_S1x512 _ i ix0 (fun a => a.elim0)
theorem epsRow_apply (i : S1x512.Idx) : epsRow i = Ideal.ofBits .f32 0x3727C5AC#32 := by
  unfold epsRow
  exact broadcastInDim_apply _ bcast_S_S1x512 _ i ix0 (fun a => a.elim0)

/-- A 512-vector laid out as a 1×512 row reads, at (u, k), the vector at k. -/
theorem vecRow_apply {α : Type} (w : S512.Idx → α) (u : Fin 1) (k : Fin 512) :
    broadcastInDim S1x512 ![1] bcast_S512_S1x512_1 w (ix2 u k) = w (ix1 k) :=
  broadcastInDim_apply _ bcast_S512_S1x512_1 w (ix2 u k) (ix1 k) (fun a => match a with
    | ⟨0, _⟩ => by show k.val = if (512 : Nat) = 1 then 0 else k.val; rw [if_neg (by decide)])

theorem meanRow_apply (A : FVec Ideal S1x512 .f32) (i : S1x512.Idx) :
    meanRow A i = Ideal.div (A i) (Ideal.ofBits .f32 0x48000000#32) := by
  show Ideal.div (A i) (nRow i) = _
  rw [nRow_apply]

theorem scaleRow_apply (A Q : FVec Ideal S1x512 .f32) (w : FVec Ideal S512 .f32) (u : Fin 1) (k : Fin 512) :
    scaleRow A Q w (ix2 u k)
      = w (ix1 k) * Ideal.rsqrt ((Ideal.div (Q (ix2 u k)) (Ideal.ofBits .f32 0x48000000#32)
          - Ideal.div (A (ix2 u k)) (Ideal.ofBits .f32 0x48000000#32) * Ideal.div (A (ix2 u k)) (Ideal.ofBits .f32 0x48000000#32))
          + Ideal.ofBits .f32 0x3727C5AC#32) := by
  show broadcastInDim S1x512 ![1] bcast_S512_S1x512_1 w (ix2 u k)
      * Ideal.rsqrt ((Ideal.div (Q (ix2 u k)) (nRow (ix2 u k)) - meanRow A (ix2 u k) * meanRow A (ix2 u k)) + epsRow (ix2 u k)) = _
  rw [vecRow_apply, nRow_apply, epsRow_apply, meanRow_apply]

theorem shiftRow_apply (A Q : FVec Ideal S1x512 .f32) (w b : FVec Ideal S512 .f32) (u : Fin 1) (k : Fin 512) :
    shiftRow A Q w b (ix2 u k)
      = b (ix1 k) - Ideal.div (A (ix2 u k)) (Ideal.ofBits .f32 0x48000000#32) * scaleRow A Q w (ix2 u k) := by
  show broadcastInDim S1x512 ![1] bcast_S512_S1x512_1 b (ix2 u k) - meanRow A (ix2 u k) * scaleRow A Q w (ix2 u k) = _
  rw [vecRow_apply, meanRow_apply]

/-! ## What the main region is handed -/

variable (m : (ℓ : Loc nD τ sig) → Buf (Elt Ideal) ℓ) (ρ : Dev nD → PrngReg)

theorem scale_eq (c : Dev nD) :
    (B2 m ρ c (Proc.devRef .tc main_v11) : FVec Ideal S1x512 .f32)
      = scaleRow (B1 m ρ c (Proc.devRef .tc main_v0_0)) (B1 m ρ c (Proc.devRef .tc main_v0_1)) (B1 m ρ c (Proc.devRef .tc main_arg1)) := by
  show StableHlo.after hostOps1 (B1 m ρ c) (Proc.devRef .tc main_v11) = _
  after_results; try rfl

theorem shift_eq (c : Dev nD) :
    (B2 m ρ c (Proc.devRef .tc main_v14) : FVec Ideal S1x512 .f32)
      = shiftRow (B1 m ρ c (Proc.devRef .tc main_v0_0)) (B1 m ρ c (Proc.devRef .tc main_v0_1)) (B1 m ρ c (Proc.devRef .tc main_arg1))
          (B1 m ρ c (Proc.devRef .tc main_arg2)) := by
  show StableHlo.after hostOps1 (B1 m ρ c) (Proc.devRef .tc main_v14) = _
  after_results; try rfl

theorem weight_eq (c : Dev nD) :
    (B2 m ρ c (Proc.devRef .tc main_v16) : FVec Ideal S512x512 .bf16)
      = truncf (F := Ideal) .bf16 (transpose S512x512 [1, 0] (B1 m ρ c (Proc.devRef .tc main_arg3) : FVec Ideal S512x512 .f32) transposes_S512x512_S512x512_1_0) bitsLt_bf16_f32 := by
  show StableHlo.after hostOps1 (B1 m ρ c) (Proc.devRef .tc main_v16) = _
  after_results; try rfl

theorem bias_eq (c : Dev nD) :
    (B2 m ρ c (Proc.devRef .tc main_v17) : FVec Ideal S1x512 .f32)
      = broadcastInDim S1x512 ![1] bcast_S512_S1x512_1 (B1 m ρ c (Proc.devRef .tc main_arg4) : FVec Ideal S512 .f32) := by
  show StableHlo.after hostOps1 (B1 m ρ c) (Proc.devRef .tc main_v17) = _
  after_results; try rfl

/-- The transposed weight at (k, q) is the weight at (q, k). -/
theorem weight_at (c : Dev nD) (k q : Fin 512) :
    (B2 m ρ c (Proc.devRef .tc main_v16) : FVec Ideal S512x512 .bf16) (ix2 k q)
      = (B1 m ρ c (Proc.devRef .tc main_arg3) : FVec Ideal S512x512 .f32) (ix2 q k) := by
  rw [weight_eq]
  exact transpose_ix2_apply _ transposes_S512x512_S512x512_1_0 k q

/-- The bias row at (u, q) is the bias at q. -/
theorem bias_at (c : Dev nD) (u : Fin 1) (q : Fin 512) :
    (B2 m ρ c (Proc.devRef .tc main_v17) : FVec Ideal S1x512 .f32) (ix2 u q)
      = (B1 m ρ c (Proc.devRef .tc main_arg4) : FVec Ideal S512 .f32) (ix1 q) := by
  rw [bias_eq]; exact vecRow_apply _ u q

/-! ## The arguments pass through -/

theorem B2_arg0 (c : Dev nD) : B2 m ρ c (Proc.devRef .tc main_arg0) = m ((c : Thread nD τ).loc main_arg0) :=
  (B2_of m ρ c main_arg0 (by decide)).trans ((B1_arr m ρ c 0).trans (((Stats.dat0 (E0 m ρ) c).arrAt_in 0 rfl _).trans (Stats.A_eq0 (E0 m ρ) c 0)))
theorem B1_arg1 (c : Dev nD) : B1 m ρ c (Proc.devRef .tc main_arg1) = m ((c : Thread nD τ).loc main_arg1) :=
  (B1_of_ne m ρ c main_arg1 (by decide)).trans rfl
theorem B1_arg2 (c : Dev nD) : B1 m ρ c (Proc.devRef .tc main_arg2) = m ((c : Thread nD τ).loc main_arg2) :=
  (B1_of_ne m ρ c main_arg2 (by decide)).trans rfl
theorem B1_arg3 (c : Dev nD) : B1 m ρ c (Proc.devRef .tc main_arg3) = m ((c : Thread nD τ).loc main_arg3) :=
  (B1_of_ne m ρ c main_arg3 (by decide)).trans rfl
theorem B1_arg4 (c : Dev nD) : B1 m ρ c (Proc.devRef .tc main_arg4) = m ((c : Thread nD τ).loc main_arg4) :=
  (B1_of_ne m ρ c main_arg4 (by decide)).trans rfl

end Cert.KernelIdeal.Glue

end
-- ==== Proof.LibERealSum.lean ====
/-
  General lemmas on real numbers seen as extended reals: the coercion commutes with finite sums, with the maximum,
  with division by a nonzero real and with the reciprocal square root of a positive real. Each says that an
  operation of the extended reals, applied to finite arguments away from its corners, is the operation of the
  reals.
-/
import Idealize.ShloMosaic.PureOps.Ideal

noncomputable section

open scoped BigOperators

namespace Cert.LibERealSum

open Idealize.ShloMosaic

/-- The coercion of a finite sum of reals is the sum of the coercions (sum over a finite set). -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion of a finite sum of reals is the sum of the coercions (sum over a finite type). -/
theorem coe_sum {ι : Type*} [Fintype ι] (f : ι → ℝ) :
    ((∑ i, f i : ℝ) : EReal) = ∑ i, ((f i : ℝ) : EReal) :=
  coe_finset_sum Finset.univ f

/-- A sum of extended reals each of which is the coercion of a real is the coercion of the real sum. -/
theorem sum_eq_coe {ι : Type*} (s : Finset ι) (g : ι → EReal) (f : ι → ℝ)
    (h : ∀ i ∈ s, g i = ((f i : ℝ) : EReal)) :
    ∑ i ∈ s, g i = ((∑ i ∈ s, f i : ℝ) : EReal) := by
  rw [coe_finset_sum]
  exact Finset.sum_congr rfl h

/-- Zero plus a sum of coerced reals is the coercion of the real sum (sum over a finite set). -/
theorem zero_add_finset_sum_coe {ι : Type*} (s : Finset ι) (f : ι → ℝ) :
    (0 : EReal) + ∑ i ∈ s, ((f i : ℝ) : EReal) = ((∑ i ∈ s, f i : ℝ) : EReal) := by
  rw [zero_add, coe_finset_sum]

/-- Zero plus a sum of coerced reals is the coercion of the real sum (sum over a finite type). -/
theorem zero_add_sum_coe {ι : Type*} [Fintype ι] (f : ι → ℝ) :
    (0 : EReal) + ∑ i, ((f i : ℝ) : EReal) = ((∑ i, f i : ℝ) : EReal) :=
  zero_add_finset_sum_coe Finset.univ f

/-- The maximum of two coerced reals is the coercion of their maximum. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

/-- Dividing a coerced real by a coerced nonzero real gives the coerced quotient. -/
theorem div_coe_coe (a : ℝ) {b : ℝ} (hb : b ≠ 0) :
    Ideal.div (a : EReal) (b : EReal) = ((a / b : ℝ) : EReal) := by
  rw [Ideal.div_coe hb, ← EReal.coe_mul, one_div, div_eq_mul_inv]

/-- The reciprocal square root of a coerced positive real is the coerced reciprocal of its square root. -/
theorem rsqrt_coe_pos {r : ℝ} (hr : 0 < r) :
    Ideal.rsqrt ((r : ℝ) : EReal) = (((Real.sqrt r)⁻¹ : ℝ) : EReal) := by
  rw [Ideal.rsqrt_coe, if_neg (not_lt.2 hr.le), if_neg hr.ne']

/-- The square root of a coerced non-negative real is the coerced square root. -/
theorem sqrt_coe_nonneg {r : ℝ} (hr : 0 ≤ r) :
    Ideal.sqrt ((r : ℝ) : EReal) = ((Real.sqrt r : ℝ) : EReal) := by
  rw [Ideal.sqrt_coe, if_neg (not_lt.2 hr)]

end Cert.LibERealSum

end
-- ==== Proof.BnAlgebra.lean ====
import proofs.«147775_j69630009803372_1_alg».proof.Proof.LibERealSum
import Mathlib.Tactic

/-!
  Batch normalisation, spelt two ways, agrees on finite data.

  For a column x₀ … x_(N−1) of reals (N = 131072), a weight w, a bias b and a positive ε, write S₁ = ∑ xᵢ,
  S₂ = ∑ xᵢ², μ = S₁ / N.

  * The kernel computes the variance as  S₂ / N − μ²,  folds the normalisation into one scale  a = w · (var + ε)^(−1/2)
    and one shift  d = b − μ · a,  and evaluates  xₙ · a + d.
  * The reference computes the variance as  (∑ (xᵢ − μ)²) / N  and evaluates  ((xₙ − μ) · (var + ε)^(−1/2)) · w + b.

  The two variances are the same real because  ∑ (xᵢ − μ)² = S₂ − 2 μ S₁ + N μ²  and  μ = S₁ / N;  it is a mean of
  squares, so var + ε > 0 and the reciprocal square root is that of a positive real; the two affine forms are then
  equal by distributivity.  Distributivity is where finiteness is used: on the extended reals it fails at the
  infinities, so the statement is about coerced reals, and each operation of the extended reals on them is the
  real operation.
-/

noncomputable section

open scoped BigOperators

namespace Cert.BnAlgebra

open Idealize.ShloMosaic Cert.LibERealSum

/-- The kernel's pre-activation of entry n of a column, over the extended reals. -/
def kernelPre (X : Fin 131072 → EReal) (w b Ne ee : EReal) (n : Fin 131072) : EReal :=
  X n * (w * Ideal.rsqrt ((Ideal.div (∑ i, X i * X i) Ne - Ideal.div (∑ i, X i) Ne * Ideal.div (∑ i, X i) Ne) + ee))
    + (b - Ideal.div (∑ i, X i) Ne
        * (w * Ideal.rsqrt ((Ideal.div (∑ i, X i * X i) Ne - Ideal.div (∑ i, X i) Ne * Ideal.div (∑ i, X i) Ne) + ee)))

/-- The reference's pre-activation of entry n of a column, over the extended reals. -/
def refPre (X : Fin 131072 → EReal) (w b Ne ee : EReal) (n : Fin 131072) : EReal :=
  ((X n - Ideal.div (∑ i, X i) Ne)
      * Ideal.rsqrt (Ideal.div (∑ i, (X i - Ideal.div (∑ j, X j) Ne) * (X i - Ideal.div (∑ j, X j) Ne)) Ne + ee)) * w + b

/-- The sum of squared deviations from any μ, expanded. -/
theorem sum_sq_dev (x : Fin 131072 → ℝ) (μ : ℝ) :
    ∑ i, (x i - μ) * (x i - μ) = (∑ i, x i * x i) - 2 * μ * (∑ i, x i) + 131072 * (μ * μ) := by
  have h : ∀ i, (x i - μ) * (x i - μ) = x i * x i - 2 * μ * x i + μ * μ := fun i => by ring
  simp only [h, Finset.sum_add_distrib, Finset.sum_sub_distrib, ← Finset.mul_sum, Finset.sum_const, Finset.card_univ,
    Fintype.card_fin, nsmul_eq_mul]
  ring

/-- The two variances are one real. -/
theorem var_eq (x : Fin 131072 → ℝ) :
    (∑ i, x i * x i) / 131072 - (∑ i, x i) / 131072 * ((∑ i, x i) / 131072)
      = (∑ i, (x i - (∑ j, x j) / 131072) * (x i - (∑ j, x j) / 131072)) / 131072 := by
  rw [sum_sq_dev]; field_simp; ring

/-- The variance is a mean of squares. -/
theorem var_nonneg (x : Fin 131072 → ℝ) (μ : ℝ) : 0 ≤ (∑ i, (x i - μ) * (x i - μ)) / 131072 :=
  div_nonneg (Finset.sum_nonneg fun i _ => mul_self_nonneg _) (by norm_num)

/-- On finite data the two pre-activations agree. -/
theorem pre_eq (x : Fin 131072 → ℝ) (w b e : ℝ) (he : 0 < e) (n : Fin 131072) :
    kernelPre (fun i => ((x i : ℝ) : EReal)) (w : EReal) (b : EReal) ((131072 : ℝ) : EReal) (e : EReal) n
      = refPre (fun i => ((x i : ℝ) : EReal)) (w : EReal) (b : EReal) ((131072 : ℝ) : EReal) (e : EReal) n := by
  have hN : (131072 : ℝ) ≠ 0 := by norm_num
  have h1 : ∑ i, ((x i : ℝ) : EReal) = ((∑ i, x i : ℝ) : EReal) := (coe_sum x).symm
  have h2 : ∑ i, ((x i : ℝ) : EReal) * ((x i : ℝ) : EReal) = ((∑ i, x i * x i : ℝ) : EReal) := by
    rw [coe_sum]; exact Finset.sum_congr rfl fun i _ => (EReal.coe_mul _ _).symm
  have hμ : Ideal.div ((∑ i, x i : ℝ) : EReal) ((131072 : ℝ) : EReal) = (((∑ i, x i) / 131072 : ℝ) : EReal) := div_coe_coe _ hN
  have h3 : ∑ i, (((x i : ℝ) : EReal) - (((∑ j, x j) / 131072 : ℝ) : EReal)) * (((x i : ℝ) : EReal) - (((∑ j, x j) / 131072 : ℝ) : EReal))
      = ((∑ i, (x i - (∑ j, x j) / 131072) * (x i - (∑ j, x j) / 131072) : ℝ) : EReal) := by
    rw [coe_sum]; exact Finset.sum_congr rfl fun i _ => by rw [← EReal.coe_sub, ← EReal.coe_mul]
  have hpos : 0 < (∑ i, (x i - (∑ j, x j) / 131072) * (x i - (∑ j, x j) / 131072)) / 131072 + e :=
    add_pos_of_nonneg_of_pos (var_nonneg x _) he
  unfold kernelPre refPre
  simp only []
  rw [h1, h2, hμ, h3, div_coe_coe _ hN, div_coe_coe _ hN, ← EReal.coe_mul, ← EReal.coe_sub, ← EReal.coe_add, var_eq x,
    ← EReal.coe_add, rsqrt_coe_pos hpos, ← EReal.coe_mul, ← EReal.coe_mul, ← EReal.coe_mul, ← EReal.coe_sub, ← EReal.coe_add,
    ← EReal.coe_sub, ← EReal.coe_mul, ← EReal.coe_mul, ← EReal.coe_add]
  exact congrArg _ (by ring)

end Cert.BnAlgebra

end
-- ==== Proof.RefRead.lean ====
/-
  The reference program's run and its operations read at an index (the generated modules), gathered for the
  modules that compare the reference with the kernel.
-/
import proofs.«147775_j69630009803372_1_alg».proof.Proof.Gen.ReferenceIdeal.Read
-- ==== Proof.RefAt.lean ====
import proofs.«147775_j69630009803372_1_alg».proof.Proof.RefRead
import Idealize.ShloMosaic.Lib.ValueIdx

set_option maxRecDepth 16384

/-!
  The reference read at an index, over the extended reals.

  With z the zero word, N the word 131072.0 and ε the word of 1e-5, the reference's pre-activation of entry (n, k) is

      mean_k = (z + ∑ j, x(j, k)) / N
      var_k  = (z + ∑ j, (x(j, k) − mean_k) · (x(j, k) − mean_k)) / N
      y(n,k) = ((x(n, k) − mean_k) · rsqrt(var_k + ε)) · w(k) + b(k)

  and its result at (n, q) is  (∑ k, [y(n, k) > z] · W(q, k)) + e(q),  the bracket being the comparison's bit as a
  float.  Each step is one of the reference's operations read at an index; the index maps the broadcasts, the two
  sums and the contraction introduce are the evident ones, stated once below.
-/

noncomputable section

namespace Cert.ReferenceIdeal.At

open Cert.ReferenceIdeal Cert.ReferenceIdeal.Read
open Idealize.ShloMosaic Idealize.ShloMosaic.ValueIdx
open scoped BigOperators

/-- The reference's pre-activation of entry (n, k). -/
def refY (x0 : FVec Ideal S131072x512 .f32) (x1 x2 : FVec Ideal S512 .f32) (n : Fin 131072) (k : Fin 512) : EReal :=
  ((x0 (ix2 n k) - Ideal.div (Ideal.ofBits .f32 0x00000000#32 + ∑ j : Fin 131072, x0 (ix2 j k)) (Ideal.ofBits .f32 0x48000000#32))
      * Ideal.rsqrt (Ideal.div (Ideal.ofBits .f32 0x00000000#32 + ∑ j : Fin 131072,
            (x0 (ix2 j k) - Ideal.div (Ideal.ofBits .f32 0x00000000#32 + ∑ i : Fin 131072, x0 (ix2 i k)) (Ideal.ofBits .f32 0x48000000#32))
            * (x0 (ix2 j k) - Ideal.div (Ideal.ofBits .f32 0x00000000#32 + ∑ i : Fin 131072, x0 (ix2 i k)) (Ideal.ofBits .f32 0x48000000#32)))
          (Ideal.ofBits .f32 0x48000000#32) + Ideal.ofBits .f32 0x3727C5AC#32))
    * x1 (ix1 k) + x2 (ix1 k)

/-! ## The index maps -/

theorem e_lidx (n : Fin 131072) (q k : Fin 512) : lidx_main_v28 (ix2 n q) k = ix2 n k :=
  funext fun a => Fin.ext (by match a with | ⟨0, _⟩ => rfl | ⟨1, _⟩ => rfl)
theorem e_ridx (n : Fin 131072) (q k : Fin 512) : ridx_main_v28 (ix2 n q) k = ix2 q k :=
  funext fun a => Fin.ext (by match a with | ⟨0, _⟩ => rfl | ⟨1, _⟩ => rfl)
theorem e_red0 (k : Fin 512) (j : Fin 131072) : idx_main_v0 (ix1 k) j = ix2 j k :=
  funext fun a => Fin.ext (by match a with | ⟨0, _⟩ => rfl | ⟨1, _⟩ => rfl)
theorem e_red7 (k : Fin 512) (j : Fin 131072) : idx_main_v7 (ix1 k) j = ix2 j k :=
  funext fun a => Fin.ext (by match a with | ⟨0, _⟩ => rfl | ⟨1, _⟩ => rfl)
theorem e_row3 (u : Fin 1) (k : Fin 512) : idx_main_v3 (ix2 u k) = ix1 k :=
  funext fun a => Fin.ext (by match a with | ⟨0, _⟩ => rfl)
theorem e_row10 (u : Fin 1) (k : Fin 512) : idx_main_v10 (ix2 u k) = ix1 k :=
  funext fun a => Fin.ext (by match a with | ⟨0, _⟩ => rfl)
theorem e_row16 (u : Fin 1) (k : Fin 512) : idx_main_v16 (ix2 u k) = ix1 k :=
  funext fun a => Fin.ext (by match a with | ⟨0, _⟩ => rfl)
theorem e_row19 (u : Fin 1) (k : Fin 512) : idx_main_v19 (ix2 u k) = ix1 k :=
  funext fun a => Fin.ext (by match a with | ⟨0, _⟩ => rfl)
theorem e_row22 (u : Fin 1) (k : Fin 512) : idx_main_v22 (ix2 u k) = ix1 k :=
  funext fun a => Fin.ext (by match a with | ⟨0, _⟩ => rfl)
theorem e_row29 (u : Fin 1) (k : Fin 512) : idx_main_v29 (ix2 u k) = ix1 k :=
  funext fun a => Fin.ext (by match a with | ⟨0, _⟩ => rfl)
theorem e_all4 (n : Fin 131072) (k : Fin 512) : idx_main_v4 (ix2 n k) = ix2 (0 : Fin 1) k :=
  funext fun a => Fin.ext (by match a with | ⟨0, _⟩ => rfl | ⟨1, _⟩ => rfl)
theorem e_all11 (n : Fin 131072) (k : Fin 512) : idx_main_v11 (ix2 n k) = ix2 (0 : Fin 1) k :=
  funext fun a => Fin.ext (by match a with | ⟨0, _⟩ => rfl | ⟨1, _⟩ => rfl)
theorem e_all17 (n : Fin 131072) (k : Fin 512) : idx_main_v17 (ix2 n k) = ix2 (0 : Fin 1) k :=
  funext fun a => Fin.ext (by match a with | ⟨0, _⟩ => rfl | ⟨1, _⟩ => rfl)
theorem e_all20 (n : Fin 131072) (k : Fin 512) : idx_main_v20 (ix2 n k) = ix2 (0 : Fin 1) k :=
  funext fun a => Fin.ext (by match a with | ⟨0, _⟩ => rfl | ⟨1, _⟩ => rfl)
theorem e_all23 (n : Fin 131072) (k : Fin 512) : idx_main_v23 (ix2 n k) = ix2 (0 : Fin 1) k :=
  funext fun a => Fin.ext (by match a with | ⟨0, _⟩ => rfl | ⟨1, _⟩ => rfl)
theorem e_all30 (n : Fin 131072) (k : Fin 512) : idx_main_v30 (ix2 n k) = ix2 (0 : Fin 1) k :=
  funext fun a => Fin.ext (by match a with | ⟨0, _⟩ => rfl | ⟨1, _⟩ => rfl)

/-! ## The stages -/

/-- The column means. -/
theorem mean_at (x0 : FVec Ideal S131072x512 .f32) (k : Fin 512) :
    val_main_v2 (F := Ideal) x0 (ix1 k)
      = Ideal.div (Ideal.ofBits .f32 0x00000000#32 + ∑ j : Fin 131072, x0 (ix2 j k)) (Ideal.ofBits .f32 0x48000000#32) := by
  rw [val_main_v2_apply, val_main_v0_apply, val_main_v1_apply, val_main_cst_0_apply, val_main_cst_apply]
  simp only [e_red0]
  rfl

/-- An entry minus its column's mean (the two places the reference forms it). -/
theorem centred5_at (x0 : FVec Ideal S131072x512 .f32) (n : Fin 131072) (k : Fin 512) :
    val_main_v5 (F := Ideal) x0 (ix2 n k)
      = x0 (ix2 n k) - Ideal.div (Ideal.ofBits .f32 0x00000000#32 + ∑ j : Fin 131072, x0 (ix2 j k)) (Ideal.ofBits .f32 0x48000000#32) := by
  rw [val_main_v5_apply, val_main_v4_apply, e_all4, val_main_v3_apply, e_row3, mean_at]
  rfl
theorem centred12_at (x0 : FVec Ideal S131072x512 .f32) (n : Fin 131072) (k : Fin 512) :
    val_main_v12 (F := Ideal) x0 (ix2 n k)
      = x0 (ix2 n k) - Ideal.div (Ideal.ofBits .f32 0x00000000#32 + ∑ j : Fin 131072, x0 (ix2 j k)) (Ideal.ofBits .f32 0x48000000#32) := by
  rw [val_main_v12_apply, val_main_v11_apply, e_all11, val_main_v10_apply, e_row10, mean_at]
  rfl

/-- The reciprocal square roots. -/
theorem rstd_at (x0 : FVec Ideal S131072x512 .f32) (k : Fin 512) :
    val_main_v15 (F := Ideal) x0 (ix1 k)
      = Ideal.rsqrt (Ideal.div (Ideal.ofBits .f32 0x00000000#32 + ∑ j : Fin 131072,
            (x0 (ix2 j k) - Ideal.div (Ideal.ofBits .f32 0x00000000#32 + ∑ i : Fin 131072, x0 (ix2 i k)) (Ideal.ofBits .f32 0x48000000#32))
            * (x0 (ix2 j k) - Ideal.div (Ideal.ofBits .f32 0x00000000#32 + ∑ i : Fin 131072, x0 (ix2 i k)) (Ideal.ofBits .f32 0x48000000#32)))
          (Ideal.ofBits .f32 0x48000000#32) + Ideal.ofBits .f32 0x3727C5AC#32) := by
  rw [val_main_v15_apply, val_main_v14_apply, val_main_v9_apply, val_main_v7_apply, val_main_v8_apply, val_main_cst_2_apply,
    val_main_v13_apply, val_main_cst_3_apply, val_main_cst_1_apply]
  simp only [e_red7, val_main_v6_apply, centred5_at]
  rfl

/-- The pre-activation. -/
theorem pre_at (x0 : FVec Ideal S131072x512 .f32) (x1 x2 : FVec Ideal S512 .f32) (n : Fin 131072) (k : Fin 512) :
    val_main_v24 (F := Ideal) x0 x1 x2 (ix2 n k) = refY x0 x1 x2 n k := by
  rw [val_main_v24_apply, val_main_v21_apply, val_main_v18_apply, centred12_at, val_main_v17_apply, e_all17, val_main_v16_apply, e_row16,
    rstd_at, val_main_v20_apply, e_all20, val_main_v19_apply, e_row19, val_main_v23_apply, e_all23, val_main_v22_apply, e_row22]
  rfl

/-- The result at (n, q). -/
theorem result_at (x0 : FVec Ideal S131072x512 .f32) (x1 x2 : FVec Ideal S512 .f32) (x3 : FVec Ideal S512x512 .f32)
    (x4 : FVec Ideal S512 .f32) (n : Fin 131072) (q : Fin 512) :
    val_main_v31 (F := Ideal) x0 x1 x2 x3 x4 (ix2 n q)
      = (∑ k : Fin 512, FloatOps.uitofp (F := Ideal) .f32 (FloatOps.cmpf (F := Ideal) .ogt (refY x0 x1 x2 n k) (Ideal.ofBits .f32 0x00000000#32))
          * x3 (ix2 q k)) + x4 (ix1 q) := by
  rw [val_main_v31_apply, val_main_v28_apply, val_main_v30_apply, e_all30, val_main_v29_apply, e_row29]
  refine congrArg (· + x4 (ix1 q)) (Finset.sum_congr rfl fun k _ => ?_)
  rw [e_lidx, e_ridx, val_main_v27_apply, val_main_v26_apply, pre_at, val_main_v25_apply, val_main_cst_4_apply]
  rfl

end Cert.ReferenceIdeal.At

end
-- ==== Proof.Bridge.lean ====
import proofs.«147775_j69630009803372_1_alg».proof.Proof.BnAlgebra
import proofs.«147775_j69630009803372_1_alg».proof.Proof.PayloadAt
import proofs.«147775_j69630009803372_1_alg».proof.Proof.RefAt

/-!
  The kernel's and the reference's pre-activations agree, entry by entry, on finite data.

  Three float words are evaluated here, once: the zero word is 0, the word 131072.0 is the real 131072 (so that the
  divisor is the number of rows the sums run over), and the word of 1e-5 is some positive real.  With them the
  kernel's folded form  x · scale + shift  and the reference's  ((x − mean) · rstd) · w + b  are the two sides of the
  identity of reals proved for one column.  The comparison's bit becomes the same float either way: the kernel widens
  the bit to 32 bits and converts it as a signed integer, the reference converts the bit as an unsigned one, and both
  give 0 or 1.
-/

noncomputable section

namespace Cert.Bridge

open Idealize.ShloMosaic Idealize.ShloMosaic.ValueIdx Cert.BnAlgebra
open scoped BigOperators

/-! ## The words -/

theorem ofBits_zero : Ideal.ofBits .f32 0x00000000#32 = 0 := by
  simp [Ideal.ofBits, Ideal.ieee]

theorem ofBits_N : Ideal.ofBits .f32 0x48000000#32 = ((131072 : ℝ) : EReal) := by
  simp [Ideal.ofBits, Ideal.ieee, -EReal.coe_mul] <;> norm_num

theorem ofBits_eps : ∃ e : ℝ, 0 < e ∧ Ideal.ofBits .f32 0x3727C5AC#32 = (e : EReal) := by
  have h : Ideal.ofBits .f32 0x3727C5AC#32 = ((10995116 * (2 : ℝ) ^ (-40 : ℤ) : ℝ) : EReal) := by
    simp [Ideal.ofBits, Ideal.ieee, -EReal.coe_mul] <;> norm_num
  exact ⟨_, by positivity, h⟩

/-! ## The comparison's bit as a float -/

theorem spike_eq (y : EReal) :
    Cert.KernelIdeal.Payload.spike y
      = FloatOps.uitofp (F := Ideal) .f32 (FloatOps.cmpf (F := Ideal) .ogt y (Ideal.ofBits .f32 0x00000000#32)) := by
  unfold Cert.KernelIdeal.Payload.spike
  generalize FloatOps.cmpf (F := Ideal) .ogt y (Ideal.ofBits .f32 0x00000000#32) = b
  show (((b.setWidth 32).toInt : ℝ) : EReal) = ((b.toNat : ℝ) : EReal)
  have hb : (b.setWidth 32).toInt = (b.toNat : ℤ) := by
    rcases BitVec.eq_zero_or_eq_one b with h | h <;> subst h <;> decide
  rw [hb, Int.cast_natCast]

/-! ## The kernel's pre-activation in closed form -/

/-- Entry (n, k) of x times column k's scale plus column k's shift, the scale and the shift from the column's sum
    and sum of squares as the host computes them. -/
def kernY (x0 : FVec Ideal ⟨2, ![131072, 512]⟩ .f32) (x1 x2 : FVec Ideal ⟨1, ![512]⟩ .f32) (n : Fin 131072) (k : Fin 512) : EReal :=
  x0 (ix2 n k)
      * (x1 (ix1 k) * Ideal.rsqrt ((Ideal.div (Ideal.ofBits .f32 0x00000000#32 + ∑ j : Fin 131072, x0 (ix2 j k) * x0 (ix2 j k)) (Ideal.ofBits .f32 0x48000000#32)
          - Ideal.div (Ideal.ofBits .f32 0x00000000#32 + ∑ j : Fin 131072, x0 (ix2 j k)) (Ideal.ofBits .f32 0x48000000#32)
            * Ideal.div (Ideal.ofBits .f32 0x00000000#32 + ∑ j : Fin 131072, x0 (ix2 j k)) (Ideal.ofBits .f32 0x48000000#32))
          + Ideal.ofBits .f32 0x3727C5AC#32))
    + (x2 (ix1 k) - Ideal.div (Ideal.ofBits .f32 0x00000000#32 + ∑ j : Fin 131072, x0 (ix2 j k)) (Ideal.ofBits .f32 0x48000000#32)
        * (x1 (ix1 k) * Ideal.rsqrt ((Ideal.div (Ideal.ofBits .f32 0x00000000#32 + ∑ j : Fin 131072, x0 (ix2 j k) * x0 (ix2 j k)) (Ideal.ofBits .f32 0x48000000#32)
          - Ideal.div (Ideal.ofBits .f32 0x00000000#32 + ∑ j : Fin 131072, x0 (ix2 j k)) (Ideal.ofBits .f32 0x48000000#32)
            * Ideal.div (Ideal.ofBits .f32 0x00000000#32 + ∑ j : Fin 131072, x0 (ix2 j k)) (Ideal.ofBits .f32 0x48000000#32))
          + Ideal.ofBits .f32 0x3727C5AC#32)))

/-- On real data the two pre-activations are equal. -/
theorem pre_agree (x0 : FVec Ideal ⟨2, ![131072, 512]⟩ .f32) (x1 x2 : FVec Ideal ⟨1, ![512]⟩ .f32)
    (hx0 : ∀ i, ∃ r : ℝ, x0 i = (r : EReal)) (hx1 : ∀ i, ∃ r : ℝ, x1 i = (r : EReal)) (hx2 : ∀ i, ∃ r : ℝ, x2 i = (r : EReal))
    (n : Fin 131072) (k : Fin 512) :
    kernY x0 x1 x2 n k = Cert.ReferenceIdeal.At.refY x0 x1 x2 n k := by
  choose xr hxr using hx0
  choose wr hwr using hx1
  choose br hbr using hx2
  obtain ⟨e, he, hE⟩ := ofBits_eps
  have key := pre_eq (fun j => xr (ix2 j k)) (wr (ix1 k)) (br (ix1 k)) e he n
  simp only [kernelPre, refPre] at key
  unfold kernY Cert.ReferenceIdeal.At.refY
  simp only [ofBits_zero, zero_add, ofBits_N, hE, hxr, hwr, hbr]
  exact key

end Cert.Bridge

end
-- ==== Proof.MainValue.lean ====
import proofs.«147775_j69630009803372_1_alg».proof.Proof.StatsValue
import proofs.«147775_j69630009803372_1_alg».proof.Proof.HostGlue
import proofs.«147775_j69630009803372_1_alg».proof.Proof.Bridge

set_option maxRecDepth 16384

/-!
  What the main region leaves: the reference's result.

  The main region is handed x as launched, the scale and shift rows the host computed from the two statistics rows,
  the transposed weight and the bias row.  The statistics rows are the whole columns' sums, so the scale and the
  shift of column k are those of the kernel's closed form `kernY`.  Point t stages rows 2048·t … 2048·t + 2047 of x
  and writes back the same rows of the result; its entry (p, q) is

      (∑ k, [x(2048·t + p, k) · scale(k) + shift(k) > 0] · W(q, k)) + e(q),

  which on finite data is the reference's result at (2048·t + p, q): the pre-activations agree entry by entry and
  the weight and bias enter both sides the same way.  The 64 blocks tile the result array, so it ends holding the
  reference's result everywhere.
-/

noncomputable section

namespace Cert.KernelIdeal.Result

open Cert.KernelIdeal Cert.KernelIdeal.Gen Cert.KernelIdeal.Steps Cert.KernelIdeal.Stats Cert.KernelIdeal.Spike Cert.KernelIdeal.Run
open Cert.KernelIdeal.Payload Cert.KernelIdeal.Glue
open Idealize.ShloMosaic Idealize.ShloMosaic.TcCoe Idealize.ShloMosaic.ValueIdx
open Idealize.ShloMosaic.Pipeline (Dat)
open scoped BigOperators

variable (m : (ℓ : Loc nD τ sig) → Buf (Elt Ideal) ℓ) (ρ : Dev nD → PrngReg)

/-- The five arguments as launched, as arrays of extended reals. -/
abbrev a0 (c : Dev nD) : FVec Ideal ⟨2, ![131072, 512]⟩ .f32 := m ((c : Thread nD τ).loc main_arg0)
abbrev a1 (c : Dev nD) : FVec Ideal ⟨1, ![512]⟩ .f32 := m ((c : Thread nD τ).loc main_arg1)
abbrev a2 (c : Dev nD) : FVec Ideal ⟨1, ![512]⟩ .f32 := m ((c : Thread nD τ).loc main_arg2)
abbrev a3 (c : Dev nD) : FVec Ideal ⟨2, ![512, 512]⟩ .f32 := m ((c : Thread nD τ).loc main_arg3)
abbrev a4 (c : Dev nD) : FVec Ideal ⟨1, ![512]⟩ .f32 := m ((c : Thread nD τ).loc main_arg4)

/-! ## The statistics rows, from the launch memory -/

theorem sum_row (c : Dev nD) (u : Fin 1) (k : Fin 512) :
    (B1 m ρ c (Proc.devRef .tc main_v0_0) : FVec Ideal S1x512 .f32) (ix2 u k)
      = Ideal.ofBits .f32 0x00000000#32 + ∑ j : Fin 131072, a0 m c (ix2 j k) := by
  have h1 : (B1 m ρ c (Proc.devRef .tc main_v0_0) : FVec Ideal S1x512 .f32) = (acc (E0 m ρ) c 31 StatsValue.h31).1 :=
    (B1_arr m ρ c 1).trans (StatsValue.final_sum (E0 m ρ) c)
  rw [h1]
  exact (StatsValue.acc_last (E0 m ρ) c StatsValue.h31 u k).1

theorem sumsq_row (c : Dev nD) (u : Fin 1) (k : Fin 512) :
    (B1 m ρ c (Proc.devRef .tc main_v0_1) : FVec Ideal S1x512 .f32) (ix2 u k)
      = Ideal.ofBits .f32 0x00000000#32 + ∑ j : Fin 131072, a0 m c (ix2 j k) * a0 m c (ix2 j k) := by
  have h1 : (B1 m ρ c (Proc.devRef .tc main_v0_1) : FVec Ideal S1x512 .f32) = (acc (E0 m ρ) c 31 StatsValue.h31).2 :=
    (B1_arr m ρ c 2).trans (StatsValue.final_sumsq (E0 m ρ) c)
  rw [h1]
  exact (StatsValue.acc_last (E0 m ρ) c StatsValue.h31 u k).2

/-! ## The pre-activation the main region forms -/

/-- Entry (n, k) of x times the scale row plus the shift row is the kernel's closed form. -/
theorem pre_closed (c : Dev nD) (u : Fin 1) (n : Fin 131072) (k : Fin 512) :
    a0 m c (ix2 n k) * (B2 m ρ c (Proc.devRef .tc main_v11) : FVec Ideal S1x512 .f32) (ix2 u k)
        + (B2 m ρ c (Proc.devRef .tc main_v14) : FVec Ideal S1x512 .f32) (ix2 u k)
      = Cert.Bridge.kernY (a0 m c) (a1 m c) (a2 m c) n k := by
  rw [scale_eq, shift_eq, shiftRow_apply, scaleRow_apply, sum_row, sumsq_row, B1_arg1, B1_arg2]
  rfl

/-! ## The blocks of the main region -/

/-- The block indices: x and the result move with the point; the four rows and the weight stay. -/
theorem idx_main : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0))

/-- The staged blocks, as arrays of extended reals. -/
abbrev bX (c : Dev nD) (t : Fin cfg1.N) : FVec Ideal S2048x512 .f32 := iblk1 (E2 m ρ) c 0 t
abbrev bScale (c : Dev nD) (t : Fin cfg1.N) : FVec Ideal S1x512 .f32 := iblk1 (E2 m ρ) c 1 t
abbrev bShift (c : Dev nD) (t : Fin cfg1.N) : FVec Ideal S1x512 .f32 := iblk1 (E2 m ρ) c 2 t
abbrev bW (c : Dev nD) (t : Fin cfg1.N) : FVec Ideal S512x512 .bf16 := iblk1 (E2 m ρ) c 3 t
abbrev bBias (c : Dev nD) (t : Fin cfg1.N) : FVec Ideal S1x512 .f32 := iblk1 (E2 m ρ) c 4 t

theorem bX_at (c : Dev nD) (t : Fin cfg1.N) (p : Fin 2048) (k : Fin 512) (h : 2048 * t.val + p.val < 131072) :
    bX m ρ c t (ix2 p k) = a0 m c (ix2 ⟨2048 * t.val + p.val, h⟩ k) := by
  obtain ⟨⟨e0, e1⟩, -⟩ := idx_main t
  show E2 m ρ c main_arg0 (((cfg1.win 0).blk t).view.emb (ix2 p k)) = _
  rw [show E2 m ρ c main_arg0 = m ((c : Thread nD τ).loc main_arg0) from B2_arg0 m ρ c]
  refine congrArg _ (funext fun a => Fin.ext ?_)
  match a with
  | ⟨0, _⟩ => show win1_0.index t (0 : Fin 2) * 2048 + 1 * p.val = 2048 * t.val + p.val; omega
  | ⟨1, _⟩ => show win1_0.index t (1 : Fin 2) * 512 + 1 * k.val = k.val; omega

theorem bScale_at (c : Dev nD) (t : Fin cfg1.N) (u : Fin 1) (k : Fin 512) :
    bScale m ρ c t (ix2 u k) = (B2 m ρ c (Proc.devRef .tc main_v11) : FVec Ideal S1x512 .f32) (ix2 u k) := by
  obtain ⟨-, ⟨e0, e1⟩, -⟩ := idx_main t
  show E2 m ρ c main_v11 (((cfg1.win 1).blk t).view.emb (ix2 u k)) = _
  refine congrArg _ (funext fun a => Fin.ext ?_)
  match a with
  | ⟨0, _⟩ => show win1_1.index t (0 : Fin 2) * 1 + 1 * u.val = u.val; omega
  | ⟨1, _⟩ => show win1_1.index t (1 : Fin 2) * 512 + 1 * k.val = k.val; omega

theorem bShift_at (c : Dev nD) (t : Fin cfg1.N) (u : Fin 1) (k : Fin 512) :
    bShift m ρ c t (ix2 u k) = (B2 m ρ c (Proc.devRef .tc main_v14) : FVec Ideal S1x512 .f32) (ix2 u k) := by
  obtain ⟨-, -, ⟨e0, e1⟩, -⟩ := idx_main t
  show E2 m ρ c main_v14 (((cfg1.win 2).blk t).view.emb (ix2 u k)) = _
  refine congrArg _ (funext fun a => Fin.ext ?_)
  match a with
  | ⟨0, _⟩ => show win1_2.index t (0 : Fin 2) * 1 + 1 * u.val = u.val; omega
  | ⟨1, _⟩ => show win1_2.index t (1 : Fin 2) * 512 + 1 * k.val = k.val; omega

theorem bW_at (c : Dev nD) (t : Fin cfg1.N) (k q : Fin 512) :
    bW m ρ c t (ix2 k q) = a3 m c (ix2 q k) := by
  obtain ⟨-, -, -, ⟨e0, e1⟩, -⟩ := idx_main t
  have h : bW m ρ c t (ix2 k q) = (B2 m ρ c (Proc.devRef .tc main_v16) : FVec Ideal S512x512 .bf16) (ix2 k q) := by
    show E2 m ρ c main_v16 (((cfg1.win 3).blk t).view.emb (ix2 k q)) = _
    refine congrArg _ (funext fun a => Fin.ext ?_)
    match a with
    | ⟨0, _⟩ => show win1_3.index t (0 : Fin 2) * 512 + 1 * k.val = k.val; omega
    | ⟨1, _⟩ => show win1_3.index t (1 : Fin 2) * 512 + 1 * q.val = q.val; omega
  rw [h, weight_at, B1_arg3]

theorem bBias_at (c : Dev nD) (t : Fin cfg1.N) (u : Fin 1) (q : Fin 512) :
    bBias m ρ c t (ix2 u q) = a4 m c (ix1 q) := by
  obtain ⟨-, -, -, -, ⟨e0, e1⟩, -⟩ := idx_main t
  have h : bBias m ρ c t (ix2 u q) = (B2 m ρ c (Proc.devRef .tc main_v17) : FVec Ideal S1x512 .f32) (ix2 u q) := by
    show E2 m ρ c main_v17 (((cfg1.win 4).blk t).view.emb (ix2 u q)) = _
    refine congrArg _ (funext fun a => Fin.ext ?_)
    match a with
    | ⟨0, _⟩ => show win1_4.index t (0 : Fin 2) * 1 + 1 * u.val = u.val; omega
    | ⟨1, _⟩ => show win1_4.index t (1 : Fin 2) * 512 + 1 * q.val = q.val; omega
  rw [h, bias_at, B1_arg4]

/-! ## What a point writes back, and the whole array -/

/-- The reference's result of the launch arguments. -/
abbrev target (c : Dev nD) : FVec Ideal ⟨2, ![131072, 512]⟩ .f32 :=
  Cert.ReferenceIdeal.Read.val_main_v31 (F := Ideal) (a0 m c) (a1 m c) (a2 m c) (a3 m c) (a4 m c)

variable (hx0 : ∀ c i, ∃ r : ℝ, a0 m c i = (r : EReal)) (hx1 : ∀ c i, ∃ r : ℝ, a1 m c i = (r : EReal))
  (hx2 : ∀ c i, ∃ r : ℝ, a2 m c i = (r : EReal))

include hx0 hx1 hx2 in
/-- Entry (p, q) of what point t writes back is the reference's result at (2048·t + p, q). -/
theorem entry_eq (c : Dev nD) (t : Fin cfg1.N) (p : Fin 2048) (q : Fin 512) (h : 2048 * t.val + p.val < 131072) :
    k1_pay1 (F := Ideal) (bX m ρ c t) (bScale m ρ c t) (bShift m ρ c t) (bW m ρ c t) (bBias m ρ c t) (ix2 p q)
      = target m c (ix2 ⟨2048 * t.val + p.val, h⟩ q) := by
  show _ = Cert.ReferenceIdeal.Read.val_main_v31 (F := Ideal) (a0 m c) (a1 m c) (a2 m c) (a3 m c) (a4 m c) (ix2 ⟨2048 * t.val + p.val, h⟩ q)
  rw [main_pay_apply, Cert.ReferenceIdeal.At.result_at, bBias_at]
  refine congrArg (· + a4 m c (ix1 q)) (Finset.sum_congr rfl fun k _ => ?_)
  rw [bW_at, bX_at m ρ c t p k h, bScale_at, bShift_at, pre_closed, Cert.Bridge.spike_eq,
    Cert.Bridge.pre_agree (a0 m c) (a1 m c) (a2 m c) (hx0 c) (hx1 c) (hx2 c)]

include hx0 hx1 hx2 in
/-- The result array ends holding the reference's result. -/
theorem final_result (c : Dev nD) : (dat1 (E2 m ρ) c).arrAt 5 cfg1.N = target m c := by
  have hN : cfg1.N = 64 := N_1
  refine (dat1 (E2 m ρ) c).arrAt_eq_of_cover 5 _ (fun t hf => ?_) (fun i => ?_)
  · obtain ⟨-, -, -, -, -, ⟨e0, e1⟩⟩ := idx_main t
    have ht : t.val < 64 := lt_of_lt_of_eq t.isLt hN
    show (cfg1.win 5).cut (grid1.coords t) ((dat1 (E2 m ρ) c).after 5 t) = _
    rw [after1_5]
    funext y
    obtain ⟨p, q, rfl⟩ : ∃ (p : Fin 2048) (q : Fin 512), y = ix2 p q := ⟨y 0, y 1, eq_ix2 y⟩
    have hp := p.isLt
    have hlt : 2048 * t.val + p.val < 131072 := by omega
    show k1_pay1 (F := Ideal) (bX m ρ c t) (bScale m ρ c t) (bShift m ρ c t) (bW m ρ c t) (bBias m ρ c t) (ix2 p q)
      = target m c (((cfg1.win 5).blk t).view.emb (ix2 p q))
    rw [entry_eq m ρ hx0 hx1 hx2 c t p q hlt]
    refine congrArg _ (funext fun a => Fin.ext ?_)
    match a with
    | ⟨0, _⟩ => show 2048 * t.val + p.val = win1_5.index t (0 : Fin 2) * 2048 + 1 * p.val; omega
    | ⟨1, _⟩ => show q.val = win1_5.index t (1 : Fin 2) * 512 + 1 * q.val; omega
  · have h0 : (i 0).val < 131072 := (i 0).isLt
    have h1 : (i 1).val < 512 := (i 1).isLt
    have htl : (i 0).val / 2048 < cfg1.N := by rw [hN]; omega
    refine ⟨⟨(i 0).val / 2048, htl⟩, flush1_5 _, ?_⟩
    obtain ⟨-, -, -, -, -, ⟨e0, e1⟩⟩ := idx_main ⟨(i 0).val / 2048, htl⟩
    show i ∈ ((View.whole main_v18).slice (win1_5.rect ⟨(i 0).val / 2048, htl⟩)).set
    rw [View.set_slice_whole, Rect.mem_set_unit]
    intro a
    match a with
    | ⟨0, _⟩ =>
      show win1_5.index ⟨(i 0).val / 2048, htl⟩ (0 : Fin 2) * 2048 ≤ (i 0).val
        ∧ (i 0).val < win1_5.index ⟨(i 0).val / 2048, htl⟩ (0 : Fin 2) * 2048 + 2048
      have e0' : win1_5.index ⟨(i 0).val / 2048, htl⟩ (0 : Fin 2) = (i 0).val / 2048 := e0
      omega
    | ⟨1, _⟩ =>
      show win1_5.index ⟨(i 0).val / 2048, htl⟩ (1 : Fin 2) * 512 ≤ (i 1).val
        ∧ (i 1).val < win1_5.index ⟨(i 0).val / 2048, htl⟩ (1 : Fin 2) * 512 + 512
      omega

end Cert.KernelIdeal.Result

end
-- ==== Proof.Finite.lean ====
import proofs.«147775_j69630009803372_1_alg».proof.Pre_finite_inputs
import Idealize.ShloMosaic.PureOps.Ideal
import Idealize.ShloMosaic.Lib.ReduceAll
import Idealize.ShloMosaic.Lib.ValueIdx
import Idealize.ShloMosaic.Lib.Pipeline.Value

/-!
  The precondition, read: every entry of x, of the normalisation's weight and of its bias is a real number.

  The precondition is the conjunction, argument by argument, of "every entry's absolute value is below +∞".  Over
  the extended reals the absolute value of x is max(x, −x), which is +∞ exactly at the two infinities; so an entry
  that passes is neither, that is, it is (the coercion of) a real.
-/

noncomputable section

namespace Cert.Finite

open Cert.Pre_finite_inputs
open Idealize.ShloMosaic Idealize.ShloMosaic.ValueIdx

instance : Subsingleton S_.Idx := ⟨fun a b => funext fun d => d.elim0⟩

/-- An extended real whose absolute value compares below the +∞ word is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exact absurd h (by simp [Ideal.cmp])
  | coe r => exact ⟨r, rfl⟩
  | top => exact absurd h (by simp [Ideal.cmp])

/-- One argument's conjunct, at an entry. -/
theorem entry_real {s : Shape} (a : FVec Ideal s .f32) (dims : Fin S_.rank → Fin s.rank) (hb : S_.BroadcastsInDim s dims) (i : s.Idx)
    (h : cmpf .olt (Host.absf (F := Ideal) a) (broadcastInDim s dims hb (constant (F := Ideal) S_ .f32 0x7F800000#32)) i = 1#1) :
    ∃ r : ℝ, a i = (r : EReal) := by
  have hb' : broadcastInDim s dims hb (constant (F := Ideal) S_ .f32 0x7F800000#32) i = Ideal.ofBits .f32 0x7F800000#32 :=
    broadcastInDim_apply dims hb _ i ix0 (fun a => a.elim0)
  refine real_of_abs_lt (a i) ?_
  rw [← hb']
  exact h

variable [Facts]

/-- Under the precondition the entries of the first three arguments are reals. -/
theorem reals_of_pre (a0 : FVec Ideal S131072x512 .f32) (a1 a2 : FVec Ideal S512 .f32) (a3 : FVec Ideal S512x512 .f32)
    (a4 : FVec Ideal S512 .f32) (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [fn, fn_part1] at h0
  obtain ⟨h18, -⟩ := IntOp.andi_eq_one.1 h0
  obtain ⟨h13, -⟩ := IntOp.andi_eq_one.1 h18
  obtain ⟨h8, h12⟩ := IntOp.andi_eq_one.1 h13
  obtain ⟨h3, h7⟩ := IntOp.andi_eq_one.1 h8
  exact ⟨fun i => entry_real a0 _ _ i (Host.reduce_andi_all _ _ _ _ _ h3 i),
    fun i => entry_real a1 _ _ i (Host.reduce_andi_all _ _ _ _ _ h7 i),
    fun i => entry_real a2 _ _ i (Host.reduce_andi_all _ _ _ _ _ h12 i)⟩

end Cert.Finite

end
-- ==== Proof.lean ====
/-
  Fused batch normalisation (training-mode statistics), a threshold at zero, and a linear layer: the kernel agrees
  with the reference over the extended reals, on finite inputs.

  The kernel program runs two pipelined regions with host arithmetic between them.  The first region streams x
  (131072 × 512) in 32 blocks of 4096 rows and accumulates, per column, the sum and the sum of squares.  The host then
  forms, per column k,  mean = S₁ / N,  var = S₂ / N − mean²,  scale = w · (var + ε)^(−1/2),  shift = b − mean · scale.
  The second region streams x again in 64 blocks of 2048 rows and writes  out(n, q) = (∑ k, [x(n,k) · scale(k) +
  shift(k) > 0] · W(q, k)) + e(q).  The reference computes  mean  the same way,  var = (∑ (x − mean)²) / N,
  y = ((x − mean) · (var + ε)^(−1/2)) · w + b  and the same sum over k of [y > 0] · W(q, k), plus e(q).

  * Frames.  Each region's body is proved as a Hoare triple per control case (Steps), the regions' proof data and
    invariants are stated (StatsRegion: two scratch rows carried from point to point; MainRegion), and the program's
    run is assembled from the regions and the host operations (WholeRun): every execution terminates, nothing
    faults, and every unscoped buffer ends at a named content — in particular the arguments as launched.  This is
    done once for the program read at the bit level and once for its idealisation; the two texts differ only in the
    namespace.  The reference has no kernel: its frame is its run with the result dropped.
  * The idealisation rewrote nothing, so there is nothing to preserve.
  * Values.  At the extended reals the statistics rows are the whole columns' sums (StatsValue), the host rows are
    read at an index (HostGlue), and each block the second region writes back is the same block of the reference's
    result (MainValue), because the two pre-activations agree entry by entry on finite data (BnAlgebra, Bridge) and
    the weight and bias enter both sides alike.  Finiteness of x, w, b is what the precondition gives (Finite); it is
    needed because the identity between the two pre-activations uses distributivity, which fails at the infinities.
-/
import proofs.«147775_j69630009803372_1_alg».proof.Defs
import proofs.«147775_j69630009803372_1_alg».proof.Proof.Gen.Kernel
import proofs.«147775_j69630009803372_1_alg».proof.Proof.Gen.KernelIdeal
import proofs.«147775_j69630009803372_1_alg».proof.Proof.Gen.ReferenceIdeal
import proofs.«147775_j69630009803372_1_alg».proof.Proof.Gen.Pre_finite_inputs
import proofs.«147775_j69630009803372_1_alg».proof.Proof.WholeRunBits
import proofs.«147775_j69630009803372_1_alg».proof.Proof.MainValue
import proofs.«147775_j69630009803372_1_alg».proof.Proof.Finite
import proofs.«147775_j69630009803372_1_alg».proof.Proof.RefRead
import Idealize.ShloMosaic.Adequacy
import Idealize.ShloMosaic.Init

noncomputable section

namespace Cert.Proof

open Idealize.ShloMosaic Idealize.ShloMosaic.TcCoe Idealize.SL.Sem

/-- The bit-level program terminates, faults nowhere and leaves its arguments as launched. -/
theorem frame_kernel : Cert.frame_Kernel (hKernel := Cert.Kernel.Gen.facts) (hPre_finite_inputs := Cert.Pre_finite_inputs.Gen.facts) :=
  fun m ρ _ => Cert.Kernel.Run.frame m ρ

/-- So does its idealisation. -/
theorem frame_kernelIdeal : Cert.frame_KernelIdeal (hKernelIdeal := Cert.KernelIdeal.Gen.facts) (hPre_finite_inputs := Cert.Pre_finite_inputs.Gen.facts) :=
  fun m ρ _ => Cert.KernelIdeal.Run.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, both idealised programs end with the reference's result of the
    arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => Cert.Finite.reals_of_pre _ _ _ _ _ (hpre c)
  refine ⟨fun c => Cert.KernelIdeal.Result.target m c, ?_, ?_⟩
  · refine (θ_run Cert.KernelIdeal.defs _ _).mono (fun r h c => ⟨?_, ?_, ?_, ?_, ?_, ?_⟩) (Cert.KernelIdeal.Run.run_all (F := Ideal) m ρ)
    · exact (h c _ (Cert.KernelIdeal.Run.mem_uc Cert.KernelIdeal.main_v18 (by decide))).trans
        ((Cert.KernelIdeal.Run.B3_arr m ρ c 5).trans
          (Cert.KernelIdeal.Result.final_result m ρ (fun c => (hfin c).1) (fun c => (hfin c).2.1) (fun c => (hfin c).2.2) c))
    · exact (h c _ (Cert.KernelIdeal.Run.mem_uc Cert.KernelIdeal.main_arg0 (by decide))).trans (Cert.KernelIdeal.Run.B3_main_arg0 m ρ c)
    · exact (h c _ (Cert.KernelIdeal.Run.mem_uc Cert.KernelIdeal.main_arg1 (by decide))).trans (Cert.KernelIdeal.Run.B3_main_arg1 m ρ c)
    · exact (h c _ (Cert.KernelIdeal.Run.mem_uc Cert.KernelIdeal.main_arg2 (by decide))).trans (Cert.KernelIdeal.Run.B3_main_arg2 m ρ c)
    · exact (h c _ (Cert.KernelIdeal.Run.mem_uc Cert.KernelIdeal.main_arg3 (by decide))).trans (Cert.KernelIdeal.Run.B3_main_arg3 m ρ c)
    · exact (h c _ (Cert.KernelIdeal.Run.mem_uc Cert.KernelIdeal.main_arg4 (by decide))).trans (Cert.KernelIdeal.Run.B3_main_arg4 m ρ c)
  · refine (θ_run Cert.ReferenceIdeal.defs _ _).mono (fun _ h c => ⟨?_, (h c).2⟩) (Cert.ReferenceIdeal.Value.run (F := Ideal) m' ρ')
    refine (h c).1.trans ((Cert.ReferenceIdeal.Read.val_main_v31_eq _ _ _ _ _).trans ?_)
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
